-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v47)) (v2 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_v48) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x128x128 : Shape := ⟨4, ![256, 3, 128, 128]⟩
abbrev S256x7 : Shape := ⟨2, ![256, 7]⟩
abbrev S256x32 : Shape := ⟨2, ![256, 32]⟩
abbrev S10 : Shape := ⟨1, ![10]⟩
abbrev S_ : Shape := ⟨0, ![]⟩

class Facts : Prop where
  bcast_S_S256x3x128x128 : S_.BroadcastsInDim S256x3x128x128 (![] : Fin 0 → Fin S256x3x128x128.rank)
  reducesTo_S256x3x128x128_S_d0_1_2_3 : S256x3x128x128.ReducesTo [0, 1, 2, 3] S_
  h_S_ : 0 < S_.numel
  bcast_S_S256x7 : S_.BroadcastsInDim S256x7 (![] : Fin 0 → Fin S256x7.rank)
  reducesTo_S256x7_S_d0_1 : S256x7.ReducesTo [0, 1] S_
  bcast_S_S256x32 : S_.BroadcastsInDim S256x32 (![] : Fin 0 → Fin S256x32.rank)
  reducesTo_S256x32_S_d0_1 : S256x32.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S256x3x128x128 .f32) (main_arg1 : FVec F S256x3x128x128 .f32) (main_arg2 : FVec F S256x7 .f32) (main_arg3 : FVec F S256x32 .f32) (main_arg4 : FVec F S10 .f32) : IVec S_ 1 :=
  let main_v0 : FVec F S256x3x128x128 .f32 := Host.absf main_arg0
  let main_cst : FVec F S_ .f32 := constant S_ .f32 0x7F800000#32
  let main_v1 : FVec F S256x3x128x128 .f32 := broadcastInDim S256x3x128x128 ![] bcast_S_S256x3x128x128 main_cst
  let main_v2 : IVec S256x3x128x128 1 := cmpf .olt main_v0 main_v1
  let main_c : IVec S_ 1 := constantI S_ 1 1#1
  let main_v3 : IVec S_ 1 := (fun x v => Host.reduce IntOp.andi x v reducesTo_S256x3x128x128_S_d0_1_2_3 h_S_) main_v2 main_c
  let main_v4 : FVec F S256x3x128x128 .f32 := Host.absf main_arg1
  let main_cst_0 : FVec F S_ .f32 := constant S_ .f32 0x7F800000#32
  let main_v5 : FVec F S256x3x128x128 .f32 := broadcastInDim S256x3x128x128 ![] bcast_S_S256x3x128x128 main_cst_0
  let main_v6 : IVec S256x3x128x128 1 := cmpf .olt main_v4 main_v5
  let main_c_1 : IVec S_ 1 := constantI S_ 1 1#1
  let main_v7 : IVec S_ 1 := (fun x v => Host.reduce IntOp.andi x v reducesTo_S256x3x128x128_S_d0_1_2_3 h_S_) main_v6 main_c_1
  let main_v8 : IVec S_ 1 := andi main_v3 main_v7
  let main_v9 : FVec F S256x7 .f32 := Host.absf main_arg2
  let main_cst_2 : FVec F S_ .f32 := constant S_ .f32 0x7F800000#32
  let main_v10 : FVec F S256x7 .f32 := broadcastInDim S256x7 ![] bcast_S_S256x7 main_cst_2
  let main_v11 : IVec S256x7 1 := cmpf .olt main_v9 main_v10
  let main_c_3 : IVec S_ 1 := constantI S_ 1 1#1
  let main_v12 : IVec S_ 1 := (fun x v => Host.reduce IntOp.andi x v reducesTo_S256x7_S_d0_1 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_v13 main_v16
-- ==== Kernel.lean ====
abbrev S256x3x128x128 : Shape := ⟨4, ![256, 3, 128, 128]⟩
abbrev S256x7 : Shape := ⟨2, ![256, 7]⟩
abbrev S256x32 : Shape := ⟨2, ![256, 32]⟩
abbrev S10 : Shape := ⟨1, ![10]⟩
abbrev S1x1 : Shape := ⟨2, ![1, 1]⟩
abbrev S32x3x128x128 : Shape := ⟨4, ![32, 3, 128, 128]⟩
abbrev S32x3x128 : Shape := ⟨3, ![32, 3, 128]⟩
abbrev S32x3 : Shape := ⟨2, ![32, 3]⟩
abbrev S32 : Shape := ⟨1, ![32]⟩
abbrev S32x1 : Shape := ⟨2, ![32, 1]⟩
abbrev S1 : Shape := ⟨1, ![1]⟩
abbrev S_ : Shape := ⟨0, ![]⟩
abbrev S256x3 : Shape := ⟨2, ![256, 3]⟩
abbrev S256x3x1 : Shape := ⟨3, ![256, 3, 1]⟩
abbrev S1x1x10 : Shape := ⟨3, ![1, 1, 10]⟩
abbrev S256x3x10 : Shape := ⟨3, ![256, 3, 10]⟩
abbrev S3 : Shape := ⟨1, ![3]⟩
abbrev S256x4 : Shape := ⟨2, ![256, 4]⟩
abbrev S256 : Shape := ⟨1, ![256]⟩

abbrev nBuf : Space → Nat
  | .hbm => 95
  | .vmem => 6
  | .smem => 0
  | _ => 0

abbrev bufTy : (tb : Table) → Fin (tcTables nBuf tb) → BufTy
  | .hbm, ⟨0, _⟩ => ⟨S256x3x128x128, .f32⟩
  | .hbm, ⟨1, _⟩ => ⟨S256x3x128x128, .f32⟩
  | .hbm, ⟨2, _⟩ => ⟨S256x7, .f32⟩
  | .hbm, ⟨3, _⟩ => ⟨S256x32, .f32⟩
  | .hbm, ⟨4, _⟩ => ⟨S10, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S256x3, .f32⟩
  | .hbm, ⟨10, _⟩ => ⟨S256x3, .f32⟩
  | .hbm, ⟨11, _⟩ => ⟨S256x3, .i1⟩
  | .hbm, ⟨12, _⟩ => ⟨S256x3x1, .f32⟩
  | .hbm, ⟨13, _⟩ => ⟨S1x1x10, .f32⟩
  | .hbm, ⟨14, _⟩ => ⟨S256x3x10, .f32⟩
  | .hbm, ⟨15, _⟩ => ⟨S256x3x10, .f32⟩
  | .hbm, ⟨16, _⟩ => ⟨S256x3x10, .f32⟩
  | .hbm, ⟨17, _⟩ => ⟨S256x3x10, .f32⟩
  | .hbm, ⟨18, _⟩ => ⟨S_, .f32⟩
  | .hbm, ⟨19, _⟩ => ⟨S256x3, .f32⟩
  | .hbm, ⟨20, _⟩ => ⟨S256x3, .i1⟩
  | .hbm, ⟨21, _⟩ => ⟨S_, .f32⟩
  | .hbm, ⟨22, _⟩ => ⟨S256x3, .f32⟩
  | .hbm, ⟨23, _⟩ => ⟨S256x3, .f32⟩
  | .hbm, ⟨24, _⟩ => ⟨S_, .f32⟩
  | .hbm, ⟨25, _⟩ => ⟨S256x3, .f32⟩
  | .hbm, ⟨26, _⟩ => ⟨S256x3, .i1⟩
  | .hbm, ⟨27, _⟩ => ⟨S_, .f32⟩
  | .hbm, ⟨28, _⟩ => ⟨S256x3, .f32⟩
  | .hbm, ⟨29, _⟩ => ⟨S256x3, .f32⟩
  | .hbm, ⟨30, _⟩ => ⟨S_, .f32⟩
  | .hbm, ⟨31, _⟩ => ⟨S256x3, .f32⟩
  | .hbm, ⟨32, _⟩ => ⟨S256x3, .i1⟩
  | .hbm, ⟨33, _⟩ => ⟨S_, .f32⟩
  | .hbm, ⟨34, _⟩ => ⟨S256x3, .f32⟩
  | .hbm, ⟨35, _⟩ => ⟨S256x3, .f32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S256x3, .f32⟩
  | .hbm, ⟨40, _⟩ => ⟨S256x3, .f32⟩
  | .hbm, ⟨41, _⟩ => ⟨S_, .f32⟩
  | .hbm, ⟨42, _⟩ => ⟨S256x3, .f32⟩
  | .hbm, ⟨43, _⟩ => ⟨S256x3, .f32⟩
  | .hbm, ⟨44, _⟩ => ⟨S256x3, .i32⟩
  | .hbm, ⟨45, _⟩ => ⟨S_, .i32⟩
  | .hbm, ⟨46, _⟩ => ⟨S256x3, .i32⟩
  | .hbm, ⟨47, _⟩ => ⟨S256x3, .i1⟩
  | .hbm, ⟨48, _⟩ => ⟨S_, .i32⟩
  | .hbm, ⟨49, _⟩ => ⟨S256x3, .i32⟩
  | .hbm, ⟨50, _⟩ => ⟨S256x3, .i32⟩
  | .hbm, ⟨51, _⟩ => ⟨S256x3, .i32⟩
  | .hbm, ⟨52, _⟩ => ⟨S256x3x1, .i32⟩
  | .hbm, ⟨53, _⟩ => ⟨S256x3, .f32⟩
  | .hbm, ⟨54, _⟩ => ⟨S256x3, .f32⟩
  | .hbm, ⟨55, _⟩ => ⟨S256x3, .f32⟩
  | .hbm, ⟨56, _⟩ => ⟨S256x3, .f32⟩
  | .hbm, ⟨57, _⟩ => ⟨S_, .f32⟩
  | .hbm, ⟨58, _⟩ => ⟨S3, .f32⟩
  | .hbm, ⟨59, _⟩ => ⟨S_, .f32⟩
  | .hbm, ⟨60, _⟩ => ⟨S3, .f32⟩
  | .hbm, ⟨61, _⟩ => ⟨S3, .f32⟩
  | .hbm, ⟨62, _⟩ => ⟨S_, .f32⟩
  | .hbm, ⟨63, _⟩ => ⟨S_, .f32⟩
  | .hbm, ⟨64, _⟩ => ⟨S256x4, .f32⟩
  | .hbm, ⟨65, _⟩ => ⟨S256x4, .f32⟩
  | .hbm, ⟨66, _⟩ => ⟨S256x4, .i1⟩
  | .hbm, ⟨67, _⟩ => ⟨S256x4, .i1⟩
  | .hbm, ⟨68, _⟩ => ⟨S_, .f32⟩
  | .hbm, ⟨69, _⟩ => ⟨S_, .f32⟩
  | .hbm, ⟨70, _⟩ => ⟨S256x4, .f32⟩
  | .hbm, ⟨71, _⟩ => ⟨S256x4, .f32⟩
  | .hbm, ⟨72, _⟩ => ⟨S256x4, .f32⟩
  | .hbm, ⟨73, _⟩ => ⟨S256x4, .f32⟩
  | .hbm, ⟨74, _⟩ => ⟨S_, .f32⟩
  | .hbm, ⟨75, _⟩ => ⟨S_, .f32⟩
  | .hbm, ⟨76, _⟩ => ⟨S256x4, .f32⟩
  | .hbm, ⟨77, _⟩ => ⟨S256x4, .f32⟩
  | .hbm, ⟨78, _⟩ => ⟨S256x4, .f32⟩
  | .hbm, ⟨79, _⟩ => ⟨S_, .f32⟩
  | .hbm, ⟨80, _⟩ => ⟨S256x4, .f32⟩
  | .hbm, ⟨81, _⟩ => ⟨S256x4, .f32⟩
  | .hbm, ⟨82, _⟩ => ⟨S_, .f32⟩
  | .hbm, ⟨83, _⟩ => ⟨S256x4, .f32⟩
  | .hbm, ⟨84, _⟩ => ⟨S256x4, .f32⟩
  | .hbm, ⟨85, _⟩ => ⟨S256x4, .f32⟩
  | .hbm, ⟨86, _⟩ => ⟨S256x4, .f32⟩
  | .hbm, ⟨87, _⟩ => ⟨S_, .f32⟩
  | .hbm, ⟨88, _⟩ => ⟨S256, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .local _ .vmem, ⟨0, _⟩ => ⟨S32x3x128x128, .f32⟩
  | .local _ .vmem, ⟨1, _⟩ => ⟨S32x3x128x128, .f32⟩
  | .local _ .vmem, ⟨2, _⟩ => ⟨S32x3x128x128, .f32⟩
  | .local _ .vmem, ⟨3, _⟩ => ⟨S32x3x128x128, .f32⟩
  | .local _ .vmem, ⟨4, _⟩ => ⟨S1x1, .f32⟩
  | .local _ .vmem, ⟨5, _⟩ => ⟨S1x1, .f32⟩
  | _, _ => ⟨S256x3x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_call0_v0 : Ref sig .tc := ⟨.hbm, 20, rfl⟩
abbrev main_call0_cst : Ref sig .tc := ⟨.hbm, 21, rfl⟩
abbrev main_call0_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_cst_1 : Ref sig .tc := ⟨.hbm, 27, rfl⟩
abbrev main_call0_call1_v0 : Ref sig .tc := ⟨.hbm, 28, rfl⟩
abbrev main_call0_v4 : Ref sig .tc := ⟨.hbm, 29, rfl⟩
abbrev main_call0_cst_2 : Ref sig .tc := ⟨.hbm, 30, rfl⟩
abbrev main_call0_v5 : Ref sig .tc := ⟨.hbm, 31, rfl⟩
abbrev main_call0_v6 : Ref sig .tc := ⟨.hbm, 32, rfl⟩
abbrev main_call0_cst_3 : Ref sig .tc := ⟨.hbm, 33, rfl⟩
abbrev main_call0_call2_v0 : Ref sig .tc := ⟨.hbm, 34, rfl⟩
abbrev main_v13 : Ref sig .tc := ⟨.hbm, 35, rfl⟩
abbrev main_c : Ref sig .tc := ⟨.hbm, 36, rfl⟩
abbrev main_c_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v14 : Ref sig .tc := ⟨.hbm, 43, rfl⟩
abbrev main_v15 : Ref sig .tc := ⟨.hbm, 44, rfl⟩
abbrev main_c_2 : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_4 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_v28 : Ref sig .tc := ⟨.hbm, 61, rfl⟩
abbrev main_cst_6 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_7 : Ref sig .tc := ⟨.hbm, 68, rfl⟩
abbrev main_call3_v0 : Ref sig .tc := ⟨.hbm, 69, rfl⟩
abbrev main_call3_v1 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_8 : Ref sig .tc := ⟨.hbm, 74, rfl⟩
abbrev main_call4_v0 : Ref sig .tc := ⟨.hbm, 75, rfl⟩
abbrev main_call4_v1 : Ref sig .tc := ⟨.hbm, 76, rfl⟩
abbrev main_v37 : Ref sig .tc := ⟨.hbm, 77, rfl⟩
abbrev main_v38 : Ref sig .tc := ⟨.hbm, 78, rfl⟩
abbrev main_cst_9 : Ref sig .tc := ⟨.hbm, 79, rfl⟩
abbrev main_v39 : Ref sig .tc := ⟨.hbm, 80, rfl⟩
abbrev main_v40 : Ref sig .tc := ⟨.hbm, 81, rfl⟩
abbrev main_call5_cst : Ref sig .tc := ⟨.hbm, 82, rfl⟩
abbrev main_call5_v0 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_10 : Ref sig .tc := ⟨.hbm, 87, rfl⟩
abbrev main_v44 : Ref sig .tc := ⟨.hbm, 88, rfl⟩
abbrev main_cst_11 : Ref sig .tc := ⟨.hbm, 89, rfl⟩
abbrev main_v45 : Ref sig .tc := ⟨.hbm, 90, rfl⟩
abbrev main_cst_12 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v18 : BitVec 1 := Scalar.cmpi .eq arg0 c7_i32
  let v19 : BitVec 32 := Scalar.extui v18
  let c0_i32_15 : BitVec 32 := 0#32
  let v20 : BitVec 1 := Scalar.cmpi .ne v19 c0_i32_15
  v20

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x3x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x3x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x3x128x128_S32x3x128x128_0_0_0_0 : ∀ a, (![0, 0, 0, 0] : Fin 4 → Nat) a + S32x3x128x128.size a ≤ S32x3x128x128.size a
  h_S32x3x128x128 : 0 < S32x3x128x128.numel
  reduces_S32x3x128x128_S32x3x128 : S32x3x128x128.Reduces [3] S32x3x128
  reduces_S32x3x128_S32x3 : S32x3x128.Reduces [2] S32x3
  reduces_S32x3_S32 : S32x3.Reduces [1] S32
  shapeCasts_S32_S32x1 : S32.ShapeCasts S32x1
  reduces_S32x1_S1 : S32x1.Reduces [0] S1
  shapeCasts_S1_S1x1 : S1.ShapeCasts S1x1
  shapeCasts_S1x1_S_ : S1x1.ShapeCasts S_
  slices_S256x32_S256x3_0_0 : S256x32.Slices ![0, 0] S256x3
  slices_S256x7_S256x3_0_0 : S256x7.Slices ![0, 0] S256x3
  bcast_S256x3_S256x3x1_0_1 : S256x3.BroadcastsInDim S256x3x1 (![0, 1] : Fin 2 → Fin S256x3x1.rank)
  bcast_S10_S1x1x10_2 : S10.BroadcastsInDim S1x1x10 (![2] : Fin 1 → Fin S1x1x10.rank)
  bcast_S256x3x1_S256x3x10_0_1_2 : S256x3x1.BroadcastsInDim S256x3x10 (![0, 1, 2] : Fin 3 → Fin S256x3x10.rank)
  bcast_S1x1x10_S256x3x10_0_1_2 : S1x1x10.BroadcastsInDim S256x3x10 (![0, 1, 2] : Fin 3 → Fin S256x3x10.rank)
  reducesTo_S256x3x10_S256x3_d2 : S256x3x10.ReducesTo [2] S256x3
  h_S_ : 0 < S_.numel
  bcast_S_S256x3 : S_.BroadcastsInDim S256x3 (![] : Fin 0 → Fin S256x3.rank)
  reducesTo_S256x3_S3_d0 : S256x3.ReducesTo [0] S3
  bcast_S_S3 : S_.BroadcastsInDim S3 (![] : Fin 0 → Fin S3.rank)
  reducesTo_S3_S_d0 : S3.ReducesTo [0] S_
  slices_S256x32_S256x4_0_3 : S256x32.Slices ![0, 3] S256x4
  slices_S256x7_S256x4_0_3 : S256x7.Slices ![0, 3] S256x4
  bcast_S_S256x4 : S_.BroadcastsInDim S256x4 (![] : Fin 0 → Fin S256x4.rank)
  reducesTo_S256x4_S256_d1 : S256x4.ReducesTo [1] S256
  reducesTo_S256_S_d0 : S256.ReducesTo [0] S_
  gather_S10_S256x3x1_S256x3_n_0_n_n_0_2_1_wf : GatherDims.WF S10 S256x3x1 S256x3 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x3x128x128.size a ≤ S256x3x128x128.size a
  hwx0_0 : ∀ i : grid0.Coords, EltTy.bits .f32 = 32 ∨ (Rect.block (s := S256x3x128x128) S32x3x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x3x128x128.size a ≤ S256x3x128x128.size a
  hwx0_1 : ∀ i : grid0.Coords, EltTy.bits .f32 = 32 ∨ (Rect.block (s := S256x3x128x128) S32x3x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S10_S256x3x1_S256x3_n_0_n_n_0_2_1 : GatherDims S10 S256x3x1 S256x3 where
  offsetDims := []
  collapsedSliceDims := [0]
  operandBatchingDims := []
  startIndicesBatchingDims := []
  startIndexMap := [0]
  indexVectorDim := 2
  sliceSizes := ![1]
  wf := gather_S10_S256x3x1_S256x3_n_0_n_n_0_2_1_wf

abbrev win0_0 : Pipeline.Window sig grid0 :=
  Pipeline.Window.ofSpec (Memref.whole main_arg0) S32x3x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x3x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x3x128x128 : Shape := ⟨4, ![256, 3, 128, 128]⟩
abbrev S256x7 : Shape := ⟨2, ![256, 7]⟩
abbrev S256x32 : Shape := ⟨2, ![256, 32]⟩
abbrev S10 : Shape := ⟨1, ![10]⟩
abbrev S_ : Shape := ⟨0, ![]⟩
abbrev S256 : Shape := ⟨1, ![256]⟩
abbrev S256x3 : Shape := ⟨2, ![256, 3]⟩
abbrev S256x3x1 : Shape := ⟨3, ![256, 3, 1]⟩
abbrev S1x1x10 : Shape := ⟨3, ![1, 1, 10]⟩
abbrev S256x3x10 : Shape := ⟨3, ![256, 3, 10]⟩
abbrev S3 : Shape := ⟨1, ![3]⟩
abbrev S256x4 : Shape := ⟨2, ![256, 4]⟩

abbrev nBuf : Space → Nat
  | .hbm => 99
  | .vmem => 0
  | .smem => 0
  | _ => 0

abbrev bufTy : (tb : Table) → Fin (tcTables nBuf tb) → BufTy
  | .hbm, ⟨0, _⟩ => ⟨S256x3x128x128, .f32⟩
  | .hbm, ⟨1, _⟩ => ⟨S256x3x128x128, .f32⟩
  | .hbm, ⟨2, _⟩ => ⟨S256x7, .f32⟩
  | .hbm, ⟨3, _⟩ => ⟨S256x32, .f32⟩
  | .hbm, ⟨4, _⟩ => ⟨S10, .f32⟩
  | .hbm, ⟨5, _⟩ => ⟨S256x3x128x128, .f32⟩
  | .hbm, ⟨6, _⟩ => ⟨S256x3x128x128, .f32⟩
  | .hbm, ⟨7, _⟩ => ⟨S_, .f32⟩
  | .hbm, ⟨8, _⟩ => ⟨S256, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S256x3, .f32⟩
  | .hbm, ⟨14, _⟩ => ⟨S256x3, .f32⟩
  | .hbm, ⟨15, _⟩ => ⟨S256x3, .i1⟩
  | .hbm, ⟨16, _⟩ => ⟨S256x3x1, .f32⟩
  | .hbm, ⟨17, _⟩ => ⟨S1x1x10, .f32⟩
  | .hbm, ⟨18, _⟩ => ⟨S256x3x10, .f32⟩
  | .hbm, ⟨19, _⟩ => ⟨S256x3x10, .f32⟩
  | .hbm, ⟨20, _⟩ => ⟨S256x3x10, .f32⟩
  | .hbm, ⟨21, _⟩ => ⟨S256x3x10, .f32⟩
  | .hbm, ⟨22, _⟩ => ⟨S_, .f32⟩
  | .hbm, ⟨23, _⟩ => ⟨S256x3, .f32⟩
  | .hbm, ⟨24, _⟩ => ⟨S256x3, .i1⟩
  | .hbm, ⟨25, _⟩ => ⟨S_, .f32⟩
  | .hbm, ⟨26, _⟩ => ⟨S256x3, .f32⟩
  | .hbm, ⟨27, _⟩ => ⟨S256x3, .f32⟩
  | .hbm, ⟨28, _⟩ => ⟨S_, .f32⟩
  | .hbm, ⟨29, _⟩ => ⟨S256x3, .f32⟩
  | .hbm, ⟨30, _⟩ => ⟨S256x3, .i1⟩
  | .hbm, ⟨31, _⟩ => ⟨S_, .f32⟩
  | .hbm, ⟨32, _⟩ => ⟨S256x3, .f32⟩
  | .hbm, ⟨33, _⟩ => ⟨S256x3, .f32⟩
  | .hbm, ⟨34, _⟩ => ⟨S_, .f32⟩
  | .hbm, ⟨35, _⟩ => ⟨S256x3, .f32⟩
  | .hbm, ⟨36, _⟩ => ⟨S256x3, .i1⟩
  | .hbm, ⟨37, _⟩ => ⟨S_, .f32⟩
  | .hbm, ⟨38, _⟩ => ⟨S256x3, .f32⟩
  | .hbm, ⟨39, _⟩ => ⟨S256x3, .f32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S256x3, .f32⟩
  | .hbm, ⟨44, _⟩ => ⟨S256x3, .f32⟩
  | .hbm, ⟨45, _⟩ => ⟨S_, .f32⟩
  | .hbm, ⟨46, _⟩ => ⟨S256x3, .f32⟩
  | .hbm, ⟨47, _⟩ => ⟨S256x3, .f32⟩
  | .hbm, ⟨48, _⟩ => ⟨S256x3, .i32⟩
  | .hbm, ⟨49, _⟩ => ⟨S_, .i32⟩
  | .hbm, ⟨50, _⟩ => ⟨S256x3, .i32⟩
  | .hbm, ⟨51, _⟩ => ⟨S256x3, .i1⟩
  | .hbm, ⟨52, _⟩ => ⟨S_, .i32⟩
  | .hbm, ⟨53, _⟩ => ⟨S256x3, .i32⟩
  | .hbm, ⟨54, _⟩ => ⟨S256x3, .i32⟩
  | .hbm, ⟨55, _⟩ => ⟨S256x3, .i32⟩
  | .hbm, ⟨56, _⟩ => ⟨S256x3x1, .i32⟩
  | .hbm, ⟨57, _⟩ => ⟨S256x3, .f32⟩
  | .hbm, ⟨58, _⟩ => ⟨S256x3, .f32⟩
  | .hbm, ⟨59, _⟩ => ⟨S256x3, .f32⟩
  | .hbm, ⟨60, _⟩ => ⟨S256x3, .f32⟩
  | .hbm, ⟨61, _⟩ => ⟨S_, .f32⟩
  | .hbm, ⟨62, _⟩ => ⟨S3, .f32⟩
  | .hbm, ⟨63, _⟩ => ⟨S_, .f32⟩
  | .hbm, ⟨64, _⟩ => ⟨S3, .f32⟩
  | .hbm, ⟨65, _⟩ => ⟨S3, .f32⟩
  | .hbm, ⟨66, _⟩ => ⟨S_, .f32⟩
  | .hbm, ⟨67, _⟩ => ⟨S_, .f32⟩
  | .hbm, ⟨68, _⟩ => ⟨S256x4, .f32⟩
  | .hbm, ⟨69, _⟩ => ⟨S256x4, .f32⟩
  | .hbm, ⟨70, _⟩ => ⟨S256x4, .i1⟩
  | .hbm, ⟨71, _⟩ => ⟨S256x4, .i1⟩
  | .hbm, ⟨72, _⟩ => ⟨S_, .f32⟩
  | .hbm, ⟨73, _⟩ => ⟨S_, .f32⟩
  | .hbm, ⟨74, _⟩ => ⟨S256x4, .f32⟩
  | .hbm, ⟨75, _⟩ => ⟨S256x4, .f32⟩
  | .hbm, ⟨76, _⟩ => ⟨S256x4, .f32⟩
  | .hbm, ⟨77, _⟩ => ⟨S256x4, .f32⟩
  | .hbm, ⟨78, _⟩ => ⟨S_, .f32⟩
  | .hbm, ⟨79, _⟩ => ⟨S_, .f32⟩
  | .hbm, ⟨80, _⟩ => ⟨S256x4, .f32⟩
  | .hbm, ⟨81, _⟩ => ⟨S256x4, .f32⟩
  | .hbm, ⟨82, _⟩ => ⟨S256x4, .f32⟩
  | .hbm, ⟨83, _⟩ => ⟨S_, .f32⟩
  | .hbm, ⟨84, _⟩ => ⟨S256x4, .f32⟩
  | .hbm, ⟨85, _⟩ => ⟨S256x4, .f32⟩
  | .hbm, ⟨86, _⟩ => ⟨S_, .f32⟩
  | .hbm, ⟨87, _⟩ => ⟨S256x4, .f32⟩
  | .hbm, ⟨88, _⟩ => ⟨S256x4, .f32⟩
  | .hbm, ⟨89, _⟩ => ⟨S256x4, .f32⟩
  | .hbm, ⟨90, _⟩ => ⟨S256x4, .f32⟩
  | .hbm, ⟨91, _⟩ => ⟨S_, .f32⟩
  | .hbm, ⟨92, _⟩ => ⟨S256, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S256x3x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_call0_v0 : Ref sig .tc := ⟨.hbm, 24, rfl⟩
abbrev main_call0_cst : Ref sig .tc := ⟨.hbm, 25, rfl⟩
abbrev main_call0_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_cst_1 : Ref sig .tc := ⟨.hbm, 31, rfl⟩
abbrev main_call0_call1_v0 : Ref sig .tc := ⟨.hbm, 32, rfl⟩
abbrev main_call0_v4 : Ref sig .tc := ⟨.hbm, 33, rfl⟩
abbrev main_call0_cst_2 : Ref sig .tc := ⟨.hbm, 34, rfl⟩
abbrev main_call0_v5 : Ref sig .tc := ⟨.hbm, 35, rfl⟩
abbrev main_call0_v6 : Ref sig .tc := ⟨.hbm, 36, rfl⟩
abbrev main_call0_cst_3 : Ref sig .tc := ⟨.hbm, 37, rfl⟩
abbrev main_call0_call2_v0 : Ref sig .tc := ⟨.hbm, 38, rfl⟩
abbrev main_v15 : Ref sig .tc := ⟨.hbm, 39, rfl⟩
abbrev main_c : Ref sig .tc := ⟨.hbm, 40, rfl⟩
abbrev main_c_3 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v16 : Ref sig .tc := ⟨.hbm, 47, rfl⟩
abbrev main_v17 : Ref sig .tc := ⟨.hbm, 48, rfl⟩
abbrev main_c_4 : Ref sig .tc := ⟨.hbm, 49, rfl⟩
abbrev main_v18 : Ref sig .tc := ⟨.hbm, 50, rfl⟩
abbrev main_v19 : Ref sig .tc := ⟨.hbm, 51, rfl⟩
abbrev main_c_5 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_6 : Ref sig .tc := ⟨.hbm, 61, rfl⟩
abbrev main_v28 : Ref sig .tc := ⟨.hbm, 62, rfl⟩
abbrev main_cst_7 : Ref sig .tc := ⟨.hbm, 63, rfl⟩
abbrev main_v29 : Ref sig .tc := ⟨.hbm, 64, rfl⟩
abbrev main_v30 : Ref sig .tc := ⟨.hbm, 65, rfl⟩
abbrev main_cst_8 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_9 : Ref sig .tc := ⟨.hbm, 72, rfl⟩
abbrev main_call3_v0 : Ref sig .tc := ⟨.hbm, 73, rfl⟩
abbrev main_call3_v1 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_10 : Ref sig .tc := ⟨.hbm, 78, rfl⟩
abbrev main_call4_v0 : Ref sig .tc := ⟨.hbm, 79, rfl⟩
abbrev main_call4_v1 : Ref sig .tc := ⟨.hbm, 80, rfl⟩
abbrev main_v39 : Ref sig .tc := ⟨.hbm, 81, rfl⟩
abbrev main_v40 : Ref sig .tc := ⟨.hbm, 82, rfl⟩
abbrev main_cst_11 : Ref sig .tc := ⟨.hbm, 83, rfl⟩
abbrev main_v41 : Ref sig .tc := ⟨.hbm, 84, rfl⟩
abbrev main_v42 : Ref sig .tc := ⟨.hbm, 85, rfl⟩
abbrev main_call5_cst : Ref sig .tc := ⟨.hbm, 86, rfl⟩
abbrev main_call5_v0 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_12 : Ref sig .tc := ⟨.hbm, 91, rfl⟩
abbrev main_v46 : Ref sig .tc := ⟨.hbm, 92, rfl⟩
abbrev main_cst_13 : Ref sig .tc := ⟨.hbm, 93, rfl⟩
abbrev main_v47 : Ref sig .tc := ⟨.hbm, 94, rfl⟩
abbrev main_cst_14 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩

abbrev nD : Nat := 1
abbrev τ : Topo := Topo.v7x

variable {F : FTy → Type} [FloatOps F]

class Facts₀ : Prop where
  reducesTo_S256x3x128x128_S256_d1_2_3 : S256x3x128x128.ReducesTo [1, 2, 3] S256
  h_S_ : 0 < S_.numel
  reducesTo_S256_S_d0 : S256.ReducesTo [0] S_
  slices_S256x32_S256x3_0_0 : S256x32.Slices ![0, 0] S256x3
  slices_S256x7_S256x3_0_0 : S256x7.Slices ![0, 0] S256x3
  bcast_S256x3_S256x3x1_0_1 : S256x3.BroadcastsInDim S256x3x1 (![0, 1] : Fin 2 → Fin S256x3x1.rank)
  bcast_S10_S1x1x10_2 : S10.BroadcastsInDim S1x1x10 (![2] : Fin 1 → Fin S1x1x10.rank)
  bcast_S256x3x1_S256x3x10_0_1_2 : S256x3x1.BroadcastsInDim S256x3x10 (![0, 1, 2] : Fin 3 → Fin S256x3x10.rank)
  bcast_S1x1x10_S256x3x10_0_1_2 : S1x1x10.BroadcastsInDim S256x3x10 (![0, 1, 2] : Fin 3 → Fin S256x3x10.rank)
  reducesTo_S256x3x10_S256x3_d2 : S256x3x10.ReducesTo [2] S256x3
  bcast_S_S256x3 : S_.BroadcastsInDim S256x3 (![] : Fin 0 → Fin S256x3.rank)
  reducesTo_S256x3_S3_d0 : S256x3.ReducesTo [0] S3
  bcast_S_S3 : S_.BroadcastsInDim S3 (![] : Fin 0 → Fin S3.rank)
  reducesTo_S3_S_d0 : S3.ReducesTo [0] S_
  slices_S256x32_S256x4_0_3 : S256x32.Slices ![0, 3] S256x4
  slices_S256x7_S256x4_0_3 : S256x7.Slices ![0, 3] S256x4
  bcast_S_S256x4 : S_.BroadcastsInDim S256x4 (![] : Fin 0 → Fin S256x4.rank)
  reducesTo_S256x4_S256_d1 : S256x4.ReducesTo [1] S256
  gather_S10_S256x3x1_S256x3_n_0_n_n_0_2_1_wf : GatherDims.WF S10 S256x3x1 S256x3 [] [0] [] [0] [] 2 ![1]

variable [Facts₀]

def gather_S10_S256x3x1_S256x3_n_0_n_n_0_2_1 : GatherDims S10 S256x3x1 S256x3 where
  offsetDims := []
  collapsedSliceDims := [0]
  operandBatchingDims := []
  startIndicesBatchingDims := []
  startIndexMap := [0]
  indexVectorDim := 2
  sliceSizes := ![1]
  wf := gather_S10_S256x3x1_S256x3_n_0_n_n_0_2_1_wf

class Facts : Prop extends Facts₀ where

variable [Facts]
-- ==== Proof.KShared.lean ====
/-
  The program is one launch of the summing kernel followed by host lines. This module fixes what the launch theorem
  of a region with lines after it needs from the program's text: the lines after the region as fifteen stretches,
  that they touch only unscoped TensorCore buffers, allocate nothing and write none of the three arrays the
  kernel's windows stage (the two inputs and the 1×1 result); the arrays as the region finds them; each input
  window's block at a grid point; and the two conditions of the kernel body in closed form over the grid of eight
  points — the accumulator is zeroed at point 0 only, the result is stored at point 7 only.
-/
import proofs.«100174_j55533927137965_2_alg».proof.Proof.Gen.Kernel.Launch
import proofs.«100174_j55533927137965_2_alg».proof.Proof.Gen.Kernel.Skeleton
import proofs.«100174_j55533927137965_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region -/

/-- The host lines that follow the launch, in order, as the fifteen stretches the program's text falls into (a called
    function's lines are a stretch of their own). -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14]

/-- Core `c`'s buffer contents when the region is entered: the launch memory (no host line precedes the launch). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- Every line after the region reads and writes TensorCore buffers only. -/
theorem tail_sub : (tailOps : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub⟩

/-- No line after the region allocates. -/
theorem tail_fresh : (tailOps : List (List (HloOp τ sig (Elt F)))).Forall fun ops => ops.Forall fun op => op.fresh = ∅ := by
  simp only [List.Forall]; repeat' constructor

/-- @main is the launch continued by the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (List.forall_iff_forall_mem.mp (List.forall_iff_forall_mem.mp tail_sub ops hops) op hop)

theorem sfx_fresh : ∀ ops ∈ (tailOps : List (List (HloOp τ sig (Elt F)))), ∀ op ∈ ops, op.fresh = ∅ := by
  intro ops hops op hop
  exact List.forall_iff_forall_mem.mp (List.forall_iff_forall_mem.mp tail_fresh ops hops) op hop

/-- The buffers no host line after the region writes: the five arguments and the kernel's 1×1 result. -/
abbrev kept : List (Ref sig .tc) := [main_arg0, main_arg1, main_arg2, main_arg3, main_arg4, main_v0]

/-- The three arrays the windows stage are among them: the two inputs and the 1×1 result. -/
theorem arrRef_mem_kept : ∀ w : Fin 3, Pipeline.arrRef spec0 w ∈ kept := by decide

/-- An operation that writes exactly one buffer, not one of those, writes none of them. -/
theorem keeps_of {op : HloOp τ sig (Elt F)} {y : Ref sig .tc} (h : op.writes = {Proc.devRef .tc y}) (hy : y ∉ kept) :
    ∀ b ∈ kept, Proc.devRef .tc b ∉ op.writes := by
  intro b hb
  rw [h, Finset.mem_singleton]
  exact StableHlo.devRef_ne_of_ne (fun e => hy (e ▸ hb))

theorem keeps0 : (hostOps1 : List (HloOp τ sig (Elt F))).Forall fun op => ∀ b ∈ kept, Proc.devRef .tc b ∉ op.writes :=
  ⟨keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide)⟩
theorem keeps1 : (hostOps1_1 : List (HloOp τ sig (Elt F))).Forall fun op => ∀ b ∈ kept, Proc.devRef .tc b ∉ op.writes :=
  ⟨keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide)⟩
theorem keeps2 : (hostOps1_2 : List (HloOp τ sig (Elt F))).Forall fun op => ∀ b ∈ kept, Proc.devRef .tc b ∉ op.writes :=
  ⟨keeps_of rfl (by decide), keeps_of rfl (by decide)⟩
theorem keeps3 : (hostOps1_3 : List (HloOp τ sig (Elt F))).Forall fun op => ∀ b ∈ kept, Proc.devRef .tc b ∉ op.writes :=
  ⟨keeps_of rfl (by decide), keeps_of rfl (by decide), keeps_of rfl (by decide), keeps_of rfl (by decide), keeps_of rfl (by decide), keeps_of rfl (by decide)⟩
theorem keeps4 : (hostOps1_4 : List (HloOp τ sig (Elt F))).Forall fun op => ∀ b ∈ kept, Proc.devRef .tc b ∉ op.writes :=
  ⟨keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide)⟩
theorem keeps5 : (hostOps1_5 : List (HloOp τ sig (Elt F))).Forall fun op => ∀ b ∈ kept, Proc.devRef .tc b ∉ op.writes :=
  keeps_of rfl (by decide)
theorem keeps6 : (hostOps1_6 : List (HloOp τ sig (Elt F))).Forall fun op => ∀ b ∈ kept, Proc.devRef .tc b ∉ op.writes :=
  ⟨keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide)⟩
theorem keeps7 : (hostOps1_7 : List (HloOp τ sig (Elt F))).Forall fun op => ∀ b ∈ kept, Proc.devRef .tc b ∉ op.writes :=
  ⟨keeps_of rfl (by decide), keeps_of rfl (by decide), keeps_of rfl (by decide)⟩
theorem keeps8 : (hostOps1_8 : List (HloOp τ sig (Elt F))).Forall fun op => ∀ b ∈ kept, Proc.devRef .tc b ∉ op.writes :=
  ⟨keeps_of rfl (by decide), keeps_of rfl (by decide), keeps_of rfl (by decide)⟩
theorem keeps9 : (hostOps1_9 : List (HloOp τ sig (Elt F))).Forall fun op => ∀ b ∈ kept, Proc.devRef .tc b ∉ op.writes :=
  ⟨keeps_of rfl (by decide), keeps_of rfl (by decide), keeps_of rfl (by decide)⟩
theorem keeps10 : (hostOps1_10 : List (HloOp τ sig (Elt F))).Forall fun op => ∀ b ∈ kept, Proc.devRef .tc b ∉ op.writes :=
  ⟨keeps_of rfl (by decide), keeps_of rfl (by decide), keeps_of rfl (by decide), keeps_of rfl (by decide)⟩
theorem keeps11 : (hostOps1_11 : List (HloOp τ sig (Elt F))).Forall fun op => ∀ b ∈ kept, Proc.devRef .tc b ∉ op.writes :=
  ⟨keeps_of rfl (by decide), keeps_of rfl (by decide), keeps_of rfl (by decide)⟩
theorem keeps12 : (hostOps1_12 : List (HloOp τ sig (Elt F))).Forall fun op => ∀ b ∈ kept, Proc.devRef .tc b ∉ op.writes :=
  keeps_of rfl (by decide)
theorem keeps13 : (hostOps1_13 : List (HloOp τ sig (Elt F))).Forall fun op => ∀ b ∈ kept, Proc.devRef .tc b ∉ op.writes :=
  keeps_of rfl (by decide)
theorem keeps14 : (hostOps1_14 : List (HloOp τ sig (Elt F))).Forall fun op => ∀ b ∈ kept, Proc.devRef .tc b ∉ op.writes :=
  ⟨keeps_of rfl (by decide), keeps_of rfl (by decide), keeps_of rfl (by decide), keeps_of rfl (by decide), keeps_of rfl (by decide), keeps_of rfl (by decide), keeps_of rfl (by decide), keeps_of rfl (by decide)⟩

/-- No line after the region writes an argument or the kernel's result: each writes its own result buffer only. -/
theorem tail_keeps : (tailOps : List (List (HloOp τ sig (Elt F)))).Forall fun ops => ops.Forall fun op =>
    ∀ b ∈ kept, Proc.devRef .tc b ∉ op.writes :=
  ⟨keeps0, keeps1, keeps2, keeps3, keeps4, keeps5, keeps6, keeps7, keeps8, keeps9, keeps10, keeps11, keeps12, keeps13, keeps14⟩

theorem sfx_keeps : ∀ ops ∈ (tailOps : List (List (HloOp τ sig (Elt F)))), ∀ op ∈ ops,
    ∀ w, Proc.devRef .tc (Pipeline.arrRef spec0 w) ∉ op.writes := by
  intro ops hops op hop w
  exact List.forall_iff_forall_mem.mp (List.forall_iff_forall_mem.mp tail_keeps ops hops) op hop _ (arrRef_mem_kept w)

/-- So after those lines each such buffer holds what it held when they began. -/
theorem tail_kept (W : Valuation τ sig (Elt F)) (b : Ref sig .tc) (hb : b ∈ kept) :
    StableHlo.after (tailOps (F := F)).flatten W (Proc.devRef .tc b) = W (Proc.devRef .tc b) :=
  StableHlo.after_of_forall_not_mem _ _ fun op hop hw => by
    obtain ⟨ops, hops, hop'⟩ := List.mem_flatten.mp hop
    exact List.forall_iff_forall_mem.mp (List.forall_iff_forall_mem.mp tail_keeps ops hops) op hop' b hb hw

/-! ## The arguments as the region finds them -/

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`: the thirty-two rows `32 t … 32 t + 31` of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- "this is the first point": the accumulator is zeroed under it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "this is the last point": the result is stored under it. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the result is not stored its window is idle and not written back; at the last point it is live. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging memrefs and the scratch -/

/-- The result window's one staging buffer, through which its contents are stated. -/
abbrev VO0_2 : View sig .tc .vmem S1x1 .f32 := (Memref.whole cc0_stg2_0 : Memref sig .tc .vmem S1x1 .f32).view
abbrev ms0_0 (t : Fin cfg0.N) : Memref sig .tc .vmem S32x3x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x3x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The 1×1 accumulator: a scoped buffer of the kernel's own, carried from point to point. -/
abbrev scM0_0 : Memref sig .tc .vmem S1x1 .f32 := Memref.whole cc0_scratch0
abbrev VS0_0 : View sig .tc .vmem S1x1 .f32 := scM0_0.view

/-- What the launch hands the region beside the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KRunA.lean ====
/-
  The kernel body at the FIRST grid point (the accumulator is zeroed, the result is not stored): on whole staging
  buffers holding the two input blocks, the result's buffer at any contents handed back untouched and the accumulator
  at anything, the body runs and leaves the accumulator written by two whole stores — the zero, then the zero plus the
  block's total. The pieces are what the symbolic run of the body's memory operations finds.
-/
import proofs.«100174_j55533927137965_2_alg».proof.Proof.KShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's stores at the first point, as pieces (last first), with the body's triple. -/
noncomputable def kernelRun0_A (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 x1 : Vec F S32x3x128x128 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__recon_kernel i arg1 harg1 arg2 harg2 arg3 harg3 arg4 harg4) K } := by
  refine ⟨[], ?_, fun xi2 E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.KRunB.lean ====
/-
  The kernel body at a MIDDLE grid point (nothing zeroed, the result not stored): the accumulator comes in at what the
  point before left and goes out written by one whole store, its old contents plus the block's total; the result's
  buffer is handed back untouched.
-/
import proofs.«100174_j55533927137965_2_alg».proof.Proof.KShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's stores at a middle point, as pieces, with the body's triple. -/
noncomputable def kernelRun0_B (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 x1 : Vec F S32x3x128x128 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__recon_kernel i arg1 harg1 arg2 harg2 arg3 harg3 arg4 harg4) K } := by
  refine ⟨[], ?_, fun xi2 E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.KRunC.lean ====
/-
  The kernel body at the LAST grid point (nothing zeroed, the result stored): the accumulator comes in at what the point
  before left, is written by one whole store (old contents plus the block's total), and the result's buffer — at any
  contents on entry — is written whole with the accumulator's new contents.
-/
import proofs.«100174_j55533927137965_2_alg».proof.Proof.KShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's stores at the last point, as pieces, with the body's triple. -/
noncomputable def kernelRun0_C (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 x1 : Vec F S32x3x128x128 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__recon_kernel i arg1 harg1 arg2 harg2 arg3 harg3 arg4 harg4) K } := by
  refine ⟨?_, ?_, fun E K => ?run⟩
  case run =>
    simp only [cc0__recon_kernel_eq_skeleton]; unfold cc0__recon_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.KFrame.lean ====
/-
  The frame run of the program: the kernel's launch over its eight grid points followed by the host lines.
  Per case of the body's two conditions (first point / a middle point / last point) what the body leaves in the 1×1
  accumulator and in the result's staging buffer, read back from the stores the symbolic run found; the contents after
  each point by recursion on the point (the accumulator at a later point is computed from what the point before left);
  the invariant carried between points (the accumulator at exactly those contents); the proof data of the pipeline;
  the body obligation at a generic point; and the run, whose post has the result array at what the last point wrote
  back, the inputs as found, and every other buffer as the host lines after the region leave it.
-/
import proofs.«100174_j55533927137965_2_alg».proof.Proof.KRunA
import proofs.«100174_j55533927137965_2_alg».proof.Proof.KRunB
import proofs.«100174_j55533927137965_2_alg».proof.Proof.KRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- First point: nothing is stored into the result's buffer (a placeholder nothing consults). -/
def out0_A_2 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 x1 : Vec F S32x3x128x128 .f32) : Vec F S1x1 .f32 :=
  VO0_2.read (Elt F) (VO0_2.writes (Elt F) VO0_2.junk (kernelRun0_A c i arg1 harg1 arg2 harg2 arg3 harg3 arg4 harg4 hc0 hc1 x0 x1).1)
/-- First point: the accumulator's two whole stores cover it. -/
theorem scover0_A_0 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 x1 : Vec F S32x3x128x128 .f32) (y : S1x1.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x1.size (by sl_kernel_rfl) y
/-- First point: what the accumulator holds afterwards. -/
def sout0_A_0 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 x1 : Vec F S32x3x128x128 .f32) : Vec F S1x1 .f32 :=
  VS0_0.read (Elt F) (VS0_0.writes (Elt F) VS0_0.junk (kernelRun0_A c i arg1 harg1 arg2 harg2 arg3 harg3 arg4 harg4 hc0 hc1 x0 x1).2.1)

/-- Middle point: nothing is stored into the result's buffer. -/
def out0_B_2 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 x1 : Vec F S32x3x128x128 .f32) (xs0 : Vec F S1x1 .f32) : Vec F S1x1 .f32 :=
  VO0_2.read (Elt F) (VO0_2.writes (Elt F) VO0_2.junk (kernelRun0_B c i arg1 harg1 arg2 harg2 arg3 harg3 arg4 harg4 hc0 hc1 x0 x1 xs0).1)
theorem scover0_B_0 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 x1 : Vec F S32x3x128x128 .f32) (xs0 : Vec F S1x1 .f32) (y : S1x1.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1x1.size (by sl_kernel_rfl) y
/-- Middle point: what the accumulator holds afterwards. -/
def sout0_B_0 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 x1 : Vec F S32x3x128x128 .f32) (xs0 : Vec F S1x1 .f32) : Vec F S1x1 .f32 :=
  VS0_0.read (Elt F) (VS0_0.writes (Elt F) VS0_0.junk (kernelRun0_B c i arg1 harg1 arg2 harg2 arg3 harg3 arg4 harg4 hc0 hc1 x0 x1 xs0).2.1)

/-- Last point: the one whole store into the result's buffer covers it. -/
theorem cover0_C_2 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 x1 : Vec F S32x3x128x128 .f32) (xs0 : Vec F S1x1 .f32) (y : S1x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x1.size (by sl_kernel_rfl) y
/-- Last point: what the result's buffer holds afterwards. -/
def out0_C_2 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 x1 : Vec F S32x3x128x128 .f32) (xs0 : Vec F S1x1 .f32) : Vec F S1x1 .f32 :=
  VO0_2.read (Elt F) (VO0_2.writes (Elt F) VO0_2.junk (kernelRun0_C c i arg1 harg1 arg2 harg2 arg3 harg3 arg4 harg4 hc0 hc1 x0 x1 xs0).1)
theorem scover0_C_0 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 x1 : Vec F S32x3x128x128 .f32) (xs0 : Vec F S1x1 .f32) (y : S1x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x1.size (by sl_kernel_rfl) y
/-- Last point: what the accumulator holds afterwards. -/
def sout0_C_0 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 x1 : Vec F S32x3x128x128 .f32) (xs0 : Vec F S1x1 .f32) : Vec F S1x1 .f32 :=
  VS0_0.read (Elt F) (VS0_0.writes (Elt F) VS0_0.junk (kernelRun0_C c i arg1 harg1 arg2 harg2 arg3 harg3 arg4 harg4 hc0 hc1 x0 x1 xs0).2.1)

/-! ## The conditions at a point, from its position -/

theorem cond0_of_zero (t : Fin cfg0.N) (h : t.val = 0) : cond0_0 (grid0.coords t) :=
  (hcond0_0 t).mpr (by rw [h])
theorem not_cond0_of_pos (t : Fin cfg0.N) (h : t.val ≠ 0) : ¬cond0_0 (grid0.coords t) := fun hc => by
  have h' := (hcond0_0 t).mp hc
  have hN : t.val < 8 := lt_of_lt_of_eq t.isLt (show cfg0.N = 8 from N_0)
  omega
theorem cond1_of_last (t : Fin cfg0.N) (h : t.val % 8 = 7) : cond0_1 (grid0.coords t) := (hcond0_1 t).mpr h
theorem not_cond1_of (t : Fin cfg0.N) (h : ¬t.val % 8 = 7) : ¬cond0_1 (grid0.coords t) := fun hc => h ((hcond0_1 t).mp hc)

/-! ## What the result's buffer and the accumulator hold after each point -/

/-- After the body at position `n`: (the result's staging buffer, the accumulator). Position 0 is the first-point case
    on the two input blocks; a later position is the middle- or last-point case on the blocks there and on the
    accumulator as position `n - 1` left it. -/
def outsAt0 (c : Dev nD) : (n : ℕ) → n < cfg0.N → Vec F S1x1 .f32 × Vec F S1x1 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (cond0_of_zero ⟨0, hn⟩ rfl) (not_cond1_of ⟨0, hn⟩ (show ¬(0 % 8 = 7) by decide)) (iblk m c 0 ⟨0, hn⟩) (iblk m c 1 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (cond0_of_zero ⟨0, hn⟩ rfl) (not_cond1_of ⟨0, hn⟩ (show ¬(0 % 8 = 7) by decide)) (iblk m c 0 ⟨0, hn⟩) (iblk m c 1 ⟨0, hn⟩))
  | n + 1, hn =>
    if h1 : (n + 1) % 8 = 7 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_cond0_of_pos ⟨n + 1, hn⟩ (Nat.succ_ne_zero n)) (cond1_of_last ⟨n + 1, hn⟩ h1) (iblk m c 0 ⟨n + 1, hn⟩) (iblk m c 1 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_cond0_of_pos ⟨n + 1, hn⟩ (Nat.succ_ne_zero n)) (cond1_of_last ⟨n + 1, hn⟩ h1) (iblk m c 0 ⟨n + 1, hn⟩) (iblk m c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_cond0_of_pos ⟨n + 1, hn⟩ (Nat.succ_ne_zero n)) (not_cond1_of ⟨n + 1, hn⟩ h1) (iblk m c 0 ⟨n + 1, hn⟩) (iblk m c 1 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_cond0_of_pos ⟨n + 1, hn⟩ (Nat.succ_ne_zero n)) (not_cond1_of ⟨n + 1, hn⟩ h1) (iblk m c 0 ⟨n + 1, hn⟩) (iblk m c 1 ⟨n + 1, hn⟩) (outsAt0 c n (Nat.lt_of_succ_lt hn)).2)

/-- At the first point. -/
theorem outsAt0_A (c : Dev nD) (t : Fin cfg0.N) (h0 : t.val = 0) (hc0 : cond0_0 (grid0.coords t)) (hc1 : ¬cond0_1 (grid0.coords t)) :
    outsAt0 m c t.val t.isLt
      = (out0_A_2 c (grid0.coords t) (ms0_0 t) (hs0_0 t) (ms0_1 t) (hs0_1 t) (ms0_2 t) (hs0_2 t) scM0_0 (Memref.isWhole_whole _) hc0 hc1 (iblk m c 0 t) (iblk m c 1 t),
         sout0_A_0 c (grid0.coords t) (ms0_0 t) (hs0_0 t) (ms0_1 t) (hs0_1 t) (ms0_2 t) (hs0_2 t) scM0_0 (Memref.isWhole_whole _) hc0 hc1 (iblk m c 0 t) (iblk m c 1 t)) := by
  obtain ⟨n, hn⟩ := t
  cases n with
  | zero => rfl
  | succ n => exact absurd h0 (Nat.succ_ne_zero n)

/-- At a middle point: the case on the accumulator as the point before left it. -/
theorem outsAt0_B (c : Dev nD) (t : Fin cfg0.N) (h0 : t.val ≠ 0) (h1 : ¬t.val % 8 = 7) (hc0 : ¬cond0_0 (grid0.coords t)) (hc1 : ¬cond0_1 (grid0.coords t)) :
    outsAt0 m c t.val t.isLt
      = (out0_B_2 c (grid0.coords t) (ms0_0 t) (hs0_0 t) (ms0_1 t) (hs0_1 t) (ms0_2 t) (hs0_2 t) scM0_0 (Memref.isWhole_whole _) hc0 hc1 (iblk m c 0 t) (iblk m c 1 t) (outsAt0 m c (t.val - 1) (Nat.lt_of_le_of_lt (Nat.sub_le _ _) t.isLt)).2,
         sout0_B_0 c (grid0.coords t) (ms0_0 t) (hs0_0 t) (ms0_1 t) (hs0_1 t) (ms0_2 t) (hs0_2 t) scM0_0 (Memref.isWhole_whole _) hc0 hc1 (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

/-- At the last point. -/
theorem outsAt0_C (c : Dev nD) (t : Fin cfg0.N) (h0 : t.val ≠ 0) (h1 : t.val % 8 = 7) (hc0 : ¬cond0_0 (grid0.coords t)) (hc1 : cond0_1 (grid0.coords t)) :
    outsAt0 m c t.val t.isLt
      = (out0_C_2 c (grid0.coords t) (ms0_0 t) (hs0_0 t) (ms0_1 t) (hs0_1 t) (ms0_2 t) (hs0_2 t) scM0_0 (Memref.isWhole_whole _) hc0 hc1 (iblk m c 0 t) (iblk m c 1 t) (outsAt0 m c (t.val - 1) (Nat.lt_of_le_of_lt (Nat.sub_le _ _) t.isLt)).2,
         sout0_C_0 c (grid0.coords t) (ms0_0 t) (hs0_0 t) (ms0_1 t) (hs0_1 t) (ms0_2 t) (hs0_2 t) scM0_0 (Memref.isWhole_whole _) hc0 hc1 (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-! ## The invariant between points -/

/-- Before the first point: what the launch hands over (the accumulator at anything). Before a later point: the
    accumulator at exactly what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- On core `c`: the arrays as the region finds them; after the body at point `t` each input's buffer at its block and
    the result's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold their blocks; the point's position says which case it is in; the
    invariant hands the body the accumulator (at anything at the first point, at what the point before left later) and
    takes it back at this point's contents; where the result is not stored its buffer goes back as it came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases hz : t.val = 0
  · -- the first point
    have hc0 : cond0_0 (grid0.coords t) := cond0_of_zero t hz
    have hc1 : ¬cond0_1 (grid0.coords t) := not_cond1_of t (by omega)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [Dat.leavesExact_idle (dats m 0 c) 2 t (idleAt0_2 t hc1) (noFlush0_2 t hc1)]
    rw [outsAt0_A m c t hz hc0 hc1]
    unfold sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩⟩
    iapply ((kernelRun0_A c (grid0.coords t) _ _ _ _ _ _ _ _ hc0 hc1 (iblk m c 0 t) (iblk m c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _)
      iexact Hg
    isplitl [Ho]; · iexact Ho
    isplitl [H0]; · iexact H0
    isplitl [H1]; · iexact H1
    iexists _; iexact H2
  · have hc0 : ¬cond0_0 (grid0.coords t) := not_cond0_of_pos t hz
    by_cases h1 : t.val % 8 = 7
    · -- the last point
      have hc1 : cond0_1 (grid0.coords t) := cond1_of_last t h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t hc1], after0_2]
      rw [outsAt0_C m c t hz h1 hc0 hc1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ hc0 hc1 (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · -- a middle point
      have hc1 : ¬cond0_1 (grid0.coords t) := not_cond1_of t h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t hc1) (noFlush0_2 t hc1)]
      rw [outsAt0_B m c t hz h1 hc0 hc1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ hc0 hc1 (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the accumulator's contents are forgotten. -/
theorem hout (c : Dev nD) : (dats m 0 c).Φ (Fin.last cfg0.N) ⊢ Pipeline.ΦA spec0 c := by
  have hne : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨HS0, Hg⟩
  isplitl [HS0]
  · iexists _; iexact HS0
  iexact Hg

/-! ## The run and the frame -/

set_option backward.isDefEq.respectTransparency.types false in
/-- For any values, from any memory with zero counters: every weakly fair execution of @main terminates, and every
    final state has the three arrays of the pipeline at what the library computes from the proof data and every other
    unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The buffers' contents when the host lines after the region begin: the pipeline's three arrays as the write-backs
    left them, every other buffer as the region found it. -/
abbrev Wfin (c : Dev nD) : Valuation τ sig (Elt F) :=
  Pipeline.withArrays spec0 c (V0 m c) fun w => (dats m 0 c).arrAt w cfg0.N

/-- An input's array is never written by the pipeline. -/
theorem Wfin_arg0 (c : Dev nD) : Wfin m c (Proc.devRef .tc main_arg0) = m ((c : Thread nD τ).loc main_arg0) :=
  (Pipeline.withArrays_arr spec0 launch0.win.arr_inj c _ _ 0).trans
    (((dats m 0 c).arrAt_in 0 rfl _).trans ((A_eq m c 0).trans (V_main_arg0 m c)))
theorem Wfin_arg1 (c : Dev nD) : Wfin m c (Proc.devRef .tc main_arg1) = m ((c : Thread nD τ).loc main_arg1) :=
  (Pipeline.withArrays_arr spec0 launch0.win.arr_inj c _ _ 1).trans
    (((dats m 0 c).arrAt_in 1 rfl _).trans ((A_eq m c 1).trans (V_main_arg1 m c)))
/-- An argument the kernel does not stage is as the launch found it. -/
theorem Wfin_arg2 (c : Dev nD) : Wfin m c (Proc.devRef .tc main_arg2) = m ((c : Thread nD τ).loc main_arg2) :=
  (Pipeline.withArrays_of_ne spec0 c _ _ main_arg2 (by decide)).trans (V_main_arg2 m c)
theorem Wfin_arg3 (c : Dev nD) : Wfin m c (Proc.devRef .tc main_arg3) = m ((c : Thread nD τ).loc main_arg3) :=
  (Pipeline.withArrays_of_ne spec0 c _ _ main_arg3 (by decide)).trans (V_main_arg3 m c)
theorem Wfin_arg4 (c : Dev nD) : Wfin m c (Proc.devRef .tc main_arg4) = m ((c : Thread nD τ).loc main_arg4) :=
  (Pipeline.withArrays_of_ne spec0 c _ _ main_arg4 (by decide)).trans (V_main_arg4 m c)
/-- The 1×1 result array is at what the last point wrote back. -/
theorem Wfin_v0 (c : Dev nD) : Wfin m c (Proc.devRef .tc main_v0) = (dats m 0 c).arrAt 2 cfg0.N :=
  Pipeline.withArrays_arr spec0 launch0.win.arr_inj c _ _ 2

/-- The run's post read at a buffer that is no array of the pipeline: the host lines' fold from `Wfin`. -/
theorem post_rest {r : PUnit × MemSt nD τ sig (Elt F)}
    (h : Pipeline.FramePost cfgs (dats m) 0 (Pipeline.afterTail₀ cfgs (dats m) 0 (V0 m) tailOps) r) (c : Dev nD)
    (b : Ref sig .tc) (hb : b ∈ Pipeline.restRefs sig spec0) :
    r.2.mem ((c.tc : Thread nD τ).loc b) = StableHlo.after (tailOps (F := F)).flatten (Wfin m c) (Proc.devRef .tc b) :=
  (h c).2 b hb

/-- From the run's post: the five argument arrays end as they began — the two staged inputs by the library's reading
    of an input window's array, the three the kernel does not stage because no host line after the region writes them. -/
theorem post_args {r : PUnit × MemSt nD τ sig (Elt F)}
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   (post_rest m h c main_arg2 (Pipeline.mem_restRefs_of main_arg2 (by decide) (by decide))).trans
     ((tail_kept _ main_arg2 (by decide)).trans (Wfin_arg2 m c)),
   (post_rest m h c main_arg3 (Pipeline.mem_restRefs_of main_arg3 (by decide) (by decide))).trans
     ((tail_kept _ main_arg3 (by decide)).trans (Wfin_arg3 m c)),
   (post_rest m h c main_arg4 (Pipeline.mem_restRefs_of main_arg4 (by decide) (by decide))).trans
     ((tail_kept _ main_arg4 (by decide)).trans (Wfin_arg4 m c))⟩

/-- The program runs to the end, faults nowhere, and its five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => post_args m h c) (run_main m ρ)

end Cert.Kernel.Hand

end
-- ==== Proof.KIShared.lean ====
/-
  The program is one launch of the summing kernel followed by host lines. This module fixes what the launch theorem
  of a region with lines after it needs from the program's text: the lines after the region as fifteen stretches,
  that they touch only unscoped TensorCore buffers, allocate nothing and write none of the three arrays the
  kernel's windows stage (the two inputs and the 1×1 result); the arrays as the region finds them; each input
  window's block at a grid point; and the two conditions of the kernel body in closed form over the grid of eight
  points — the accumulator is zeroed at point 0 only, the result is stored at point 7 only.
-/
import proofs.«100174_j55533927137965_2_alg».proof.Proof.Gen.KernelIdeal.Launch
import proofs.«100174_j55533927137965_2_alg».proof.Proof.Gen.KernelIdeal.Skeleton
import proofs.«100174_j55533927137965_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region -/

/-- The host lines that follow the launch, in order, as the fifteen stretches the program's text falls into (a called
    function's lines are a stretch of their own). -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14]

/-- Core `c`'s buffer contents when the region is entered: the launch memory (no host line precedes the launch). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- Every line after the region reads and writes TensorCore buffers only. -/
theorem tail_sub : (tailOps : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub⟩

/-- No line after the region allocates. -/
theorem tail_fresh : (tailOps : List (List (HloOp τ sig (Elt F)))).Forall fun ops => ops.Forall fun op => op.fresh = ∅ := by
  simp only [List.Forall]; repeat' constructor

/-- @main is the launch continued by the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (List.forall_iff_forall_mem.mp (List.forall_iff_forall_mem.mp tail_sub ops hops) op hop)

theorem sfx_fresh : ∀ ops ∈ (tailOps : List (List (HloOp τ sig (Elt F)))), ∀ op ∈ ops, op.fresh = ∅ := by
  intro ops hops op hop
  exact List.forall_iff_forall_mem.mp (List.forall_iff_forall_mem.mp tail_fresh ops hops) op hop

/-- The buffers no host line after the region writes: the five arguments and the kernel's 1×1 result. -/
abbrev kept : List (Ref sig .tc) := [main_arg0, main_arg1, main_arg2, main_arg3, main_arg4, main_v0]

/-- The three arrays the windows stage are among them: the two inputs and the 1×1 result. -/
theorem arrRef_mem_kept : ∀ w : Fin 3, Pipeline.arrRef spec0 w ∈ kept := by decide

/-- An operation that writes exactly one buffer, not one of those, writes none of them. -/
theorem keeps_of {op : HloOp τ sig (Elt F)} {y : Ref sig .tc} (h : op.writes = {Proc.devRef .tc y}) (hy : y ∉ kept) :
    ∀ b ∈ kept, Proc.devRef .tc b ∉ op.writes := by
  intro b hb
  rw [h, Finset.mem_singleton]
  exact StableHlo.devRef_ne_of_ne (fun e => hy (e ▸ hb))

theorem keeps0 : (hostOps1 : List (HloOp τ sig (Elt F))).Forall fun op => ∀ b ∈ kept, Proc.devRef .tc b ∉ op.writes :=
  ⟨keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide)⟩
theorem keeps1 : (hostOps1_1 : List (HloOp τ sig (Elt F))).Forall fun op => ∀ b ∈ kept, Proc.devRef .tc b ∉ op.writes :=
  ⟨keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide)⟩
theorem keeps2 : (hostOps1_2 : List (HloOp τ sig (Elt F))).Forall fun op => ∀ b ∈ kept, Proc.devRef .tc b ∉ op.writes :=
  ⟨keeps_of rfl (by decide), keeps_of rfl (by decide)⟩
theorem keeps3 : (hostOps1_3 : List (HloOp τ sig (Elt F))).Forall fun op => ∀ b ∈ kept, Proc.devRef .tc b ∉ op.writes :=
  ⟨keeps_of rfl (by decide), keeps_of rfl (by decide), keeps_of rfl (by decide), keeps_of rfl (by decide), keeps_of rfl (by decide), keeps_of rfl (by decide)⟩
theorem keeps4 : (hostOps1_4 : List (HloOp τ sig (Elt F))).Forall fun op => ∀ b ∈ kept, Proc.devRef .tc b ∉ op.writes :=
  ⟨keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide)⟩
theorem keeps5 : (hostOps1_5 : List (HloOp τ sig (Elt F))).Forall fun op => ∀ b ∈ kept, Proc.devRef .tc b ∉ op.writes :=
  keeps_of rfl (by decide)
theorem keeps6 : (hostOps1_6 : List (HloOp τ sig (Elt F))).Forall fun op => ∀ b ∈ kept, Proc.devRef .tc b ∉ op.writes :=
  ⟨keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide), keeps_of rfl (by decide)⟩
theorem keeps7 : (hostOps1_7 : List (HloOp τ sig (Elt F))).Forall fun op => ∀ b ∈ kept, Proc.devRef .tc b ∉ op.writes :=
  ⟨keeps_of rfl (by decide), keeps_of rfl (by decide), keeps_of rfl (by decide)⟩
theorem keeps8 : (hostOps1_8 : List (HloOp τ sig (Elt F))).Forall fun op => ∀ b ∈ kept, Proc.devRef .tc b ∉ op.writes :=
  ⟨keeps_of rfl (by decide), keeps_of rfl (by decide), keeps_of rfl (by decide)⟩
theorem keeps9 : (hostOps1_9 : List (HloOp τ sig (Elt F))).Forall fun op => ∀ b ∈ kept, Proc.devRef .tc b ∉ op.writes :=
  ⟨keeps_of rfl (by decide), keeps_of rfl (by decide), keeps_of rfl (by decide)⟩
theorem keeps10 : (hostOps1_10 : List (HloOp τ sig (Elt F))).Forall fun op => ∀ b ∈ kept, Proc.devRef .tc b ∉ op.writes :=
  ⟨keeps_of rfl (by decide), keeps_of rfl (by decide), keeps_of rfl (by decide), keeps_of rfl (by decide)⟩
theorem keeps11 : (hostOps1_11 : List (HloOp τ sig (Elt F))).Forall fun op => ∀ b ∈ kept, Proc.devRef .tc b ∉ op.writes :=
  ⟨keeps_of rfl (by decide), keeps_of rfl (by decide), keeps_of rfl (by decide)⟩
theorem keeps12 : (hostOps1_12 : List (HloOp τ sig (Elt F))).Forall fun op => ∀ b ∈ kept, Proc.devRef .tc b ∉ op.writes :=
  keeps_of rfl (by decide)
theorem keeps13 : (hostOps1_13 : List (HloOp τ sig (Elt F))).Forall fun op => ∀ b ∈ kept, Proc.devRef .tc b ∉ op.writes :=
  keeps_of rfl (by decide)
theorem keeps14 : (hostOps1_14 : List (HloOp τ sig (Elt F))).Forall fun op => ∀ b ∈ kept, Proc.devRef .tc b ∉ op.writes :=
  ⟨keeps_of rfl (by decide), keeps_of rfl (by decide), keeps_of rfl (by decide), keeps_of rfl (by decide), keeps_of rfl (by decide), keeps_of rfl (by decide), keeps_of rfl (by decide), keeps_of rfl (by decide)⟩

/-- No line after the region writes an argument or the kernel's result: each writes its own result buffer only. -/
theorem tail_keeps : (tailOps : List (List (HloOp τ sig (Elt F)))).Forall fun ops => ops.Forall fun op =>
    ∀ b ∈ kept, Proc.devRef .tc b ∉ op.writes :=
  ⟨keeps0, keeps1, keeps2, keeps3, keeps4, keeps5, keeps6, keeps7, keeps8, keeps9, keeps10, keeps11, keeps12, keeps13, keeps14⟩

theorem sfx_keeps : ∀ ops ∈ (tailOps : List (List (HloOp τ sig (Elt F)))), ∀ op ∈ ops,
    ∀ w, Proc.devRef .tc (Pipeline.arrRef spec0 w) ∉ op.writes := by
  intro ops hops op hop w
  exact List.forall_iff_forall_mem.mp (List.forall_iff_forall_mem.mp tail_keeps ops hops) op hop _ (arrRef_mem_kept w)

/-- So after those lines each such buffer holds what it held when they began. -/
theorem tail_kept (W : Valuation τ sig (Elt F)) (b : Ref sig .tc) (hb : b ∈ kept) :
    StableHlo.after (tailOps (F := F)).flatten W (Proc.devRef .tc b) = W (Proc.devRef .tc b) :=
  StableHlo.after_of_forall_not_mem _ _ fun op hop hw => by
    obtain ⟨ops, hops, hop'⟩ := List.mem_flatten.mp hop
    exact List.forall_iff_forall_mem.mp (List.forall_iff_forall_mem.mp tail_keeps ops hops) op hop' b hb hw

/-! ## The arguments as the region finds them -/

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`: the thirty-two rows `32 t … 32 t + 31` of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- "this is the first point": the accumulator is zeroed under it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "this is the last point": the result is stored under it. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the result is not stored its window is idle and not written back; at the last point it is live. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging memrefs and the scratch -/

/-- The result window's one staging buffer, through which its contents are stated. -/
abbrev VO0_2 : View sig .tc .vmem S1x1 .f32 := (Memref.whole cc0_stg2_0 : Memref sig .tc .vmem S1x1 .f32).view
abbrev ms0_0 (t : Fin cfg0.N) : Memref sig .tc .vmem S32x3x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x3x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The 1×1 accumulator: a scoped buffer of the kernel's own, carried from point to point. -/
abbrev scM0_0 : Memref sig .tc .vmem S1x1 .f32 := Memref.whole cc0_scratch0
abbrev VS0_0 : View sig .tc .vmem S1x1 .f32 := scM0_0.view

/-- What the launch hands the region beside the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KIRunA.lean ====
/-
  The kernel body at the FIRST grid point (the accumulator is zeroed, the result is not stored): on whole staging
  buffers holding the two input blocks, the result's buffer at any contents handed back untouched and the accumulator
  at anything, the body runs and leaves the accumulator written by two whole stores — the zero, then the zero plus the
  block's total. The pieces are what the symbolic run of the body's memory operations finds.
-/
import proofs.«100174_j55533927137965_2_alg».proof.Proof.KIShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's stores at the first point, as pieces (last first), with the body's triple. -/
noncomputable def kernelRun0_A (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 x1 : Vec F S32x3x128x128 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__recon_kernel i arg1 harg1 arg2 harg2 arg3 harg3 arg4 harg4) K } := by
  refine ⟨[], ?_, fun xi2 E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KIRunB.lean ====
/-
  The kernel body at a MIDDLE grid point (nothing zeroed, the result not stored): the accumulator comes in at what the
  point before left and goes out written by one whole store, its old contents plus the block's total; the result's
  buffer is handed back untouched.
-/
import proofs.«100174_j55533927137965_2_alg».proof.Proof.KIShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's stores at a middle point, as pieces, with the body's triple. -/
noncomputable def kernelRun0_B (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 x1 : Vec F S32x3x128x128 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__recon_kernel i arg1 harg1 arg2 harg2 arg3 harg3 arg4 harg4) K } := by
  refine ⟨[], ?_, fun xi2 E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KIRunC.lean ====
/-
  The kernel body at the LAST grid point (nothing zeroed, the result stored): the accumulator comes in at what the point
  before left, is written by one whole store (old contents plus the block's total), and the result's buffer — at any
  contents on entry — is written whole with the accumulator's new contents.
-/
import proofs.«100174_j55533927137965_2_alg».proof.Proof.KIShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's stores at the last point, as pieces, with the body's triple. -/
noncomputable def kernelRun0_C (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 x1 : Vec F S32x3x128x128 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__recon_kernel i arg1 harg1 arg2 harg2 arg3 harg3 arg4 harg4) K } := by
  refine ⟨?_, ?_, fun E K => ?run⟩
  case run =>
    simp only [cc0__recon_kernel_eq_skeleton]; unfold cc0__recon_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KIFrame.lean ====
/-
  The frame run of the program: the kernel's launch over its eight grid points followed by the host lines.
  Per case of the body's two conditions (first point / a middle point / last point) what the body leaves in the 1×1
  accumulator and in the result's staging buffer, read back from the stores the symbolic run found; the contents after
  each point by recursion on the point (the accumulator at a later point is computed from what the point before left);
  the invariant carried between points (the accumulator at exactly those contents); the proof data of the pipeline;
  the body obligation at a generic point; and the run, whose post has the result array at what the last point wrote
  back, the inputs as found, and every other buffer as the host lines after the region leave it.
-/
import proofs.«100174_j55533927137965_2_alg».proof.Proof.KIRunA
import proofs.«100174_j55533927137965_2_alg».proof.Proof.KIRunB
import proofs.«100174_j55533927137965_2_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- First point: nothing is stored into the result's buffer (a placeholder nothing consults). -/
def out0_A_2 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 x1 : Vec F S32x3x128x128 .f32) : Vec F S1x1 .f32 :=
  VO0_2.read (Elt F) (VO0_2.writes (Elt F) VO0_2.junk (kernelRun0_A c i arg1 harg1 arg2 harg2 arg3 harg3 arg4 harg4 hc0 hc1 x0 x1).1)
/-- First point: the accumulator's two whole stores cover it. -/
theorem scover0_A_0 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 x1 : Vec F S32x3x128x128 .f32) (y : S1x1.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x1.size (by sl_kernel_rfl) y
/-- First point: what the accumulator holds afterwards. -/
def sout0_A_0 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 x1 : Vec F S32x3x128x128 .f32) : Vec F S1x1 .f32 :=
  VS0_0.read (Elt F) (VS0_0.writes (Elt F) VS0_0.junk (kernelRun0_A c i arg1 harg1 arg2 harg2 arg3 harg3 arg4 harg4 hc0 hc1 x0 x1).2.1)

/-- Middle point: nothing is stored into the result's buffer. -/
def out0_B_2 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 x1 : Vec F S32x3x128x128 .f32) (xs0 : Vec F S1x1 .f32) : Vec F S1x1 .f32 :=
  VO0_2.read (Elt F) (VO0_2.writes (Elt F) VO0_2.junk (kernelRun0_B c i arg1 harg1 arg2 harg2 arg3 harg3 arg4 harg4 hc0 hc1 x0 x1 xs0).1)
theorem scover0_B_0 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 x1 : Vec F S32x3x128x128 .f32) (xs0 : Vec F S1x1 .f32) (y : S1x1.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1x1.size (by sl_kernel_rfl) y
/-- Middle point: what the accumulator holds afterwards. -/
def sout0_B_0 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 x1 : Vec F S32x3x128x128 .f32) (xs0 : Vec F S1x1 .f32) : Vec F S1x1 .f32 :=
  VS0_0.read (Elt F) (VS0_0.writes (Elt F) VS0_0.junk (kernelRun0_B c i arg1 harg1 arg2 harg2 arg3 harg3 arg4 harg4 hc0 hc1 x0 x1 xs0).2.1)

/-- Last point: the one whole store into the result's buffer covers it. -/
theorem cover0_C_2 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 x1 : Vec F S32x3x128x128 .f32) (xs0 : Vec F S1x1 .f32) (y : S1x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x1.size (by sl_kernel_rfl) y
/-- Last point: what the result's buffer holds afterwards. -/
def out0_C_2 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 x1 : Vec F S32x3x128x128 .f32) (xs0 : Vec F S1x1 .f32) : Vec F S1x1 .f32 :=
  VO0_2.read (Elt F) (VO0_2.writes (Elt F) VO0_2.junk (kernelRun0_C c i arg1 harg1 arg2 harg2 arg3 harg3 arg4 harg4 hc0 hc1 x0 x1 xs0).1)
theorem scover0_C_0 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 x1 : Vec F S32x3x128x128 .f32) (xs0 : Vec F S1x1 .f32) (y : S1x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x1.size (by sl_kernel_rfl) y
/-- Last point: what the accumulator holds afterwards. -/
def sout0_C_0 (c : Dev nD) (i : grid0.Coords) (arg1 : Memref sig .tc .vmem S32x3x128x128 .f32) (harg1 : arg1.IsWhole) (arg2 : Memref sig .tc .vmem S32x3x128x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 x1 : Vec F S32x3x128x128 .f32) (xs0 : Vec F S1x1 .f32) : Vec F S1x1 .f32 :=
  VS0_0.read (Elt F) (VS0_0.writes (Elt F) VS0_0.junk (kernelRun0_C c i arg1 harg1 arg2 harg2 arg3 harg3 arg4 harg4 hc0 hc1 x0 x1 xs0).2.1)

/-! ## The conditions at a point, from its position -/

theorem cond0_of_zero (t : Fin cfg0.N) (h : t.val = 0) : cond0_0 (grid0.coords t) :=
  (hcond0_0 t).mpr (by rw [h])
theorem not_cond0_of_pos (t : Fin cfg0.N) (h : t.val ≠ 0) : ¬cond0_0 (grid0.coords t) := fun hc => by
  have h' := (hcond0_0 t).mp hc
  have hN : t.val < 8 := lt_of_lt_of_eq t.isLt (show cfg0.N = 8 from N_0)
  omega
theorem cond1_of_last (t : Fin cfg0.N) (h : t.val % 8 = 7) : cond0_1 (grid0.coords t) := (hcond0_1 t).mpr h
theorem not_cond1_of (t : Fin cfg0.N) (h : ¬t.val % 8 = 7) : ¬cond0_1 (grid0.coords t) := fun hc => h ((hcond0_1 t).mp hc)

/-! ## What the result's buffer and the accumulator hold after each point -/

/-- After the body at position `n`: (the result's staging buffer, the accumulator). Position 0 is the first-point case
    on the two input blocks; a later position is the middle- or last-point case on the blocks there and on the
    accumulator as position `n - 1` left it. -/
def outsAt0 (c : Dev nD) : (n : ℕ) → n < cfg0.N → Vec F S1x1 .f32 × Vec F S1x1 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (cond0_of_zero ⟨0, hn⟩ rfl) (not_cond1_of ⟨0, hn⟩ (show ¬(0 % 8 = 7) by decide)) (iblk m c 0 ⟨0, hn⟩) (iblk m c 1 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (cond0_of_zero ⟨0, hn⟩ rfl) (not_cond1_of ⟨0, hn⟩ (show ¬(0 % 8 = 7) by decide)) (iblk m c 0 ⟨0, hn⟩) (iblk m c 1 ⟨0, hn⟩))
  | n + 1, hn =>
    if h1 : (n + 1) % 8 = 7 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_cond0_of_pos ⟨n + 1, hn⟩ (Nat.succ_ne_zero n)) (cond1_of_last ⟨n + 1, hn⟩ h1) (iblk m c 0 ⟨n + 1, hn⟩) (iblk m c 1 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_cond0_of_pos ⟨n + 1, hn⟩ (Nat.succ_ne_zero n)) (cond1_of_last ⟨n + 1, hn⟩ h1) (iblk m c 0 ⟨n + 1, hn⟩) (iblk m c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_cond0_of_pos ⟨n + 1, hn⟩ (Nat.succ_ne_zero n)) (not_cond1_of ⟨n + 1, hn⟩ h1) (iblk m c 0 ⟨n + 1, hn⟩) (iblk m c 1 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_cond0_of_pos ⟨n + 1, hn⟩ (Nat.succ_ne_zero n)) (not_cond1_of ⟨n + 1, hn⟩ h1) (iblk m c 0 ⟨n + 1, hn⟩) (iblk m c 1 ⟨n + 1, hn⟩) (outsAt0 c n (Nat.lt_of_succ_lt hn)).2)

/-- At the first point. -/
theorem outsAt0_A (c : Dev nD) (t : Fin cfg0.N) (h0 : t.val = 0) (hc0 : cond0_0 (grid0.coords t)) (hc1 : ¬cond0_1 (grid0.coords t)) :
    outsAt0 m c t.val t.isLt
      = (out0_A_2 c (grid0.coords t) (ms0_0 t) (hs0_0 t) (ms0_1 t) (hs0_1 t) (ms0_2 t) (hs0_2 t) scM0_0 (Memref.isWhole_whole _) hc0 hc1 (iblk m c 0 t) (iblk m c 1 t),
         sout0_A_0 c (grid0.coords t) (ms0_0 t) (hs0_0 t) (ms0_1 t) (hs0_1 t) (ms0_2 t) (hs0_2 t) scM0_0 (Memref.isWhole_whole _) hc0 hc1 (iblk m c 0 t) (iblk m c 1 t)) := by
  obtain ⟨n, hn⟩ := t
  cases n with
  | zero => rfl
  | succ n => exact absurd h0 (Nat.succ_ne_zero n)

/-- At a middle point: the case on the accumulator as the point before left it. -/
theorem outsAt0_B (c : Dev nD) (t : Fin cfg0.N) (h0 : t.val ≠ 0) (h1 : ¬t.val % 8 = 7) (hc0 : ¬cond0_0 (grid0.coords t)) (hc1 : ¬cond0_1 (grid0.coords t)) :
    outsAt0 m c t.val t.isLt
      = (out0_B_2 c (grid0.coords t) (ms0_0 t) (hs0_0 t) (ms0_1 t) (hs0_1 t) (ms0_2 t) (hs0_2 t) scM0_0 (Memref.isWhole_whole _) hc0 hc1 (iblk m c 0 t) (iblk m c 1 t) (outsAt0 m c (t.val - 1) (Nat.lt_of_le_of_lt (Nat.sub_le _ _) t.isLt)).2,
         sout0_B_0 c (grid0.coords t) (ms0_0 t) (hs0_0 t) (ms0_1 t) (hs0_1 t) (ms0_2 t) (hs0_2 t) scM0_0 (Memref.isWhole_whole _) hc0 hc1 (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

/-- At the last point. -/
theorem outsAt0_C (c : Dev nD) (t : Fin cfg0.N) (h0 : t.val ≠ 0) (h1 : t.val % 8 = 7) (hc0 : ¬cond0_0 (grid0.coords t)) (hc1 : cond0_1 (grid0.coords t)) :
    outsAt0 m c t.val t.isLt
      = (out0_C_2 c (grid0.coords t) (ms0_0 t) (hs0_0 t) (ms0_1 t) (hs0_1 t) (ms0_2 t) (hs0_2 t) scM0_0 (Memref.isWhole_whole _) hc0 hc1 (iblk m c 0 t) (iblk m c 1 t) (outsAt0 m c (t.val - 1) (Nat.lt_of_le_of_lt (Nat.sub_le _ _) t.isLt)).2,
         sout0_C_0 c (grid0.coords t) (ms0_0 t) (hs0_0 t) (ms0_1 t) (hs0_1 t) (ms0_2 t) (hs0_2 t) scM0_0 (Memref.isWhole_whole _) hc0 hc1 (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-! ## The invariant between points -/

/-- Before the first point: what the launch hands over (the accumulator at anything). Before a later point: the
    accumulator at exactly what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- On core `c`: the arrays as the region finds them; after the body at point `t` each input's buffer at its block and
    the result's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold their blocks; the point's position says which case it is in; the
    invariant hands the body the accumulator (at anything at the first point, at what the point before left later) and
    takes it back at this point's contents; where the result is not stored its buffer goes back as it came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases hz : t.val = 0
  · -- the first point
    have hc0 : cond0_0 (grid0.coords t) := cond0_of_zero t hz
    have hc1 : ¬cond0_1 (grid0.coords t) := not_cond1_of t (by omega)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [Dat.leavesExact_idle (dats m 0 c) 2 t (idleAt0_2 t hc1) (noFlush0_2 t hc1)]
    rw [outsAt0_A m c t hz hc0 hc1]
    unfold sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩⟩
    iapply ((kernelRun0_A c (grid0.coords t) _ _ _ _ _ _ _ _ hc0 hc1 (iblk m c 0 t) (iblk m c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _)
      iexact Hg
    isplitl [Ho]; · iexact Ho
    isplitl [H0]; · iexact H0
    isplitl [H1]; · iexact H1
    iexists _; iexact H2
  · have hc0 : ¬cond0_0 (grid0.coords t) := not_cond0_of_pos t hz
    by_cases h1 : t.val % 8 = 7
    · -- the last point
      have hc1 : cond0_1 (grid0.coords t) := cond1_of_last t h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t hc1], after0_2]
      rw [outsAt0_C m c t hz h1 hc0 hc1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ hc0 hc1 (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · -- a middle point
      have hc1 : ¬cond0_1 (grid0.coords t) := not_cond1_of t h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t hc1) (noFlush0_2 t hc1)]
      rw [outsAt0_B m c t hz h1 hc0 hc1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ hc0 hc1 (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the accumulator's contents are forgotten. -/
theorem hout (c : Dev nD) : (dats m 0 c).Φ (Fin.last cfg0.N) ⊢ Pipeline.ΦA spec0 c := by
  have hne : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨HS0, Hg⟩
  isplitl [HS0]
  · iexists _; iexact HS0
  iexact Hg

/-! ## The run and the frame -/

set_option backward.isDefEq.respectTransparency.types false in
/-- For any values, from any memory with zero counters: every weakly fair execution of @main terminates, and every
    final state has the three arrays of the pipeline at what the library computes from the proof data and every other
    unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The buffers' contents when the host lines after the region begin: the pipeline's three arrays as the write-backs
    left them, every other buffer as the region found it. -/
abbrev Wfin (c : Dev nD) : Valuation τ sig (Elt F) :=
  Pipeline.withArrays spec0 c (V0 m c) fun w => (dats m 0 c).arrAt w cfg0.N

/-- An input's array is never written by the pipeline. -/
theorem Wfin_arg0 (c : Dev nD) : Wfin m c (Proc.devRef .tc main_arg0) = m ((c : Thread nD τ).loc main_arg0) :=
  (Pipeline.withArrays_arr spec0 launch0.win.arr_inj c _ _ 0).trans
    (((dats m 0 c).arrAt_in 0 rfl _).trans ((A_eq m c 0).trans (V_main_arg0 m c)))
theorem Wfin_arg1 (c : Dev nD) : Wfin m c (Proc.devRef .tc main_arg1) = m ((c : Thread nD τ).loc main_arg1) :=
  (Pipeline.withArrays_arr spec0 launch0.win.arr_inj c _ _ 1).trans
    (((dats m 0 c).arrAt_in 1 rfl _).trans ((A_eq m c 1).trans (V_main_arg1 m c)))
/-- An argument the kernel does not stage is as the launch found it. -/
theorem Wfin_arg2 (c : Dev nD) : Wfin m c (Proc.devRef .tc main_arg2) = m ((c : Thread nD τ).loc main_arg2) :=
  (Pipeline.withArrays_of_ne spec0 c _ _ main_arg2 (by decide)).trans (V_main_arg2 m c)
theorem Wfin_arg3 (c : Dev nD) : Wfin m c (Proc.devRef .tc main_arg3) = m ((c : Thread nD τ).loc main_arg3) :=
  (Pipeline.withArrays_of_ne spec0 c _ _ main_arg3 (by decide)).trans (V_main_arg3 m c)
theorem Wfin_arg4 (c : Dev nD) : Wfin m c (Proc.devRef .tc main_arg4) = m ((c : Thread nD τ).loc main_arg4) :=
  (Pipeline.withArrays_of_ne spec0 c _ _ main_arg4 (by decide)).trans (V_main_arg4 m c)
/-- The 1×1 result array is at what the last point wrote back. -/
theorem Wfin_v0 (c : Dev nD) : Wfin m c (Proc.devRef .tc main_v0) = (dats m 0 c).arrAt 2 cfg0.N :=
  Pipeline.withArrays_arr spec0 launch0.win.arr_inj c _ _ 2

/-- The run's post read at a buffer that is no array of the pipeline: the host lines' fold from `Wfin`. -/
theorem post_rest {r : PUnit × MemSt nD τ sig (Elt F)}
    (h : Pipeline.FramePost cfgs (dats m) 0 (Pipeline.afterTail₀ cfgs (dats m) 0 (V0 m) tailOps) r) (c : Dev nD)
    (b : Ref sig .tc) (hb : b ∈ Pipeline.restRefs sig spec0) :
    r.2.mem ((c.tc : Thread nD τ).loc b) = StableHlo.after (tailOps (F := F)).flatten (Wfin m c) (Proc.devRef .tc b) :=
  (h c).2 b hb

/-- From the run's post: the five argument arrays end as they began — the two staged inputs by the library's reading
    of an input window's array, the three the kernel does not stage because no host line after the region writes them. -/
theorem post_args {r : PUnit × MemSt nD τ sig (Elt F)}
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   (post_rest m h c main_arg2 (Pipeline.mem_restRefs_of main_arg2 (by decide) (by decide))).trans
     ((tail_kept _ main_arg2 (by decide)).trans (Wfin_arg2 m c)),
   (post_rest m h c main_arg3 (Pipeline.mem_restRefs_of main_arg3 (by decide) (by decide))).trans
     ((tail_kept _ main_arg3 (by decide)).trans (Wfin_arg3 m c)),
   (post_rest m h c main_arg4 (Pipeline.mem_restRefs_of main_arg4 (by decide) (by decide))).trans
     ((tail_kept _ main_arg4 (by decide)).trans (Wfin_arg4 m c))⟩

/-- The program runs to the end, faults nowhere, and its five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => post_args m h c) (run_main m ρ)

end Cert.KernelIdeal.Hand

end
-- ==== Proof.KIValue.lean ====
/-
  What the kernel's launch leaves in its 1×1 result array. Each case's stores, read back, are the body's two payloads:
  the first point leaves in the accumulator "zero plus the block's total" (the second payload applied to the first),
  a later point "the accumulator before plus the block's total", and the last point copies that into the result's
  buffer. So the accumulator after point n is a chain of the second payload over the blocks 0 … n, and — the result
  window having one block, the whole array, written back after the last point only — the result array ends at the
  chain after point 7.
-/
import proofs.«100174_j55533927137965_2_alg».proof.Proof.KIFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A middle point leaves the accumulator at the second payload of the two blocks and the accumulator before. -/
theorem sout_B (c : Dev nD) (i : grid0.Coords) (a1 : Memref sig .tc .vmem S32x3x128x128 .f32) (h1 : a1.IsWhole) (a2 : Memref sig .tc .vmem S32x3x128x128 .f32) (h2 : a2.IsWhole) (a3 : Memref sig .tc .vmem S1x1 .f32) (h3 : a3.IsWhole) (a4 : Memref sig .tc .vmem S1x1 .f32) (h4 : a4.IsWhole) (hc0 : ¬cond0_0 i) (hc1 : ¬cond0_1 i) (x0 x1 : Vec F S32x3x128x128 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero hz2]
  simp only [View.readAt_eq_ld, h1.read_unread, h2.read_unread, h4.read_unread, View.ld_unit_zero (S := S32x3x128x128) hz4, View.ld_unit_zero (S := S1x1) hz2]

/-- The last point leaves the accumulator at the same. -/
theorem sout_C (c : Dev nD) (i : grid0.Coords) (a1 : Memref sig .tc .vmem S32x3x128x128 .f32) (h1 : a1.IsWhole) (a2 : Memref sig .tc .vmem S32x3x128x128 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i) (x0 x1 : Vec F S32x3x128x128 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz2]
  simp only [View.readAt_eq_ld, h1.read_unread, h2.read_unread, h4.read_unread, View.ld_unit_zero (S := S32x3x128x128) hz4, View.ld_unit_zero (S := S1x1) hz2]

/-- The last point leaves the result's buffer at the accumulator's new contents: the store's value is a load of the
    accumulator that its own store just covered. -/
theorem out_C (c : Dev nD) (i : grid0.Coords) (a1 : Memref sig .tc .vmem S32x3x128x128 .f32) (h1 : a1.IsWhole) (a2 : Memref sig .tc .vmem S32x3x128x128 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i) (x0 x1 : Vec F S32x3x128x128 .f32) (xs0 : Vec F S1x1 .f32) :
    out0_C_2 c i a1 h1 a2 h2 a3 h3 a4 h4 hc0 hc1 x0 x1 xs0 = k0_pay2 x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz2, View.readCov_unit_zero (S := S1x1) _ hz2]
  simp only [View.readAt_eq_ld, h1.read_unread, h2.read_unread, h4.read_unread, View.ld_unit_zero (S := S32x3x128x128) hz4, View.ld_unit_zero (S := S1x1) hz2]

/-- The first point leaves the accumulator at the second payload of the two blocks and the zero the point itself
    stored first (the accumulator's load reads that store back). -/
theorem sout_A (c : Dev nD) (i : grid0.Coords) (a1 : Memref sig .tc .vmem S32x3x128x128 .f32) (h1 : a1.IsWhole) (a2 : Memref sig .tc .vmem S32x3x128x128 .f32) (h2 : a2.IsWhole) (a3 : Memref sig .tc .vmem S1x1 .f32) (h3 : a3.IsWhole) (a4 : Memref sig .tc .vmem S1x1 .f32) (h4 : a4.IsWhole) (hc0 : cond0_0 i) (hc1 : ¬cond0_1 i) (x0 x1 : Vec F S32x3x128x128 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, h4.read_unread, View.ld_unit_zero (S := S32x3x128x128) hz4, View.ld_unit_zero (S := S1x1) hz2]

/-! ## The accumulator, point by point -/

/-- The accumulator after point `n`: the second payload of the point's two blocks and of the accumulator before — at
    point 0 of the zero the point itself stored. -/
def acc (c : Dev nD) : (n : ℕ) → n < cfg0.N → Vec F S1x1 .f32
  | 0, h => k0_pay2 (iblk m c 0 ⟨0, h⟩) (iblk m c 1 ⟨0, h⟩) (k0_pay1 (F := F))
  | n + 1, h => k0_pay2 (iblk m c 0 ⟨n + 1, h⟩) (iblk m c 1 ⟨n + 1, h⟩) (acc c n (Nat.lt_of_succ_lt h))

/-- What the frame's proof data say the accumulator holds after point `n` is that chain: by induction on the point. -/
theorem outsAt_acc (c : Dev nD) : ∀ (n : ℕ) (h : n < cfg0.N), (outsAt0 m c n h).2 = acc m c n h
  | 0, h => by
    rw [outsAt0_A m c ⟨0, h⟩ rfl (cond0_of_zero ⟨0, h⟩ rfl) (not_cond1_of ⟨0, h⟩ (show ¬(0 % 8 = 7) by decide))]
    dsimp only
    exact sout_A (F := F) ..
  | n + 1, h => by
    have ih := outsAt_acc c n (Nat.lt_of_succ_lt h)
    have h0 : (⟨n + 1, h⟩ : Fin cfg0.N).val ≠ 0 := Nat.succ_ne_zero n
    by_cases h1 : (n + 1) % 8 = 7
    · rw [outsAt0_C m c ⟨n + 1, h⟩ h0 h1 (not_cond0_of_pos _ h0) (cond1_of_last _ h1)]
      dsimp only
      rw [sout_C]
      show k0_pay2 _ _ (outsAt0 m c n _).2 = k0_pay2 _ _ (acc m c n _)
      rw [ih]
    · rw [outsAt0_B m c ⟨n + 1, h⟩ h0 h1 (not_cond0_of_pos _ h0) (not_cond1_of _ h1)]
      dsimp only
      rw [sout_B]
      show k0_pay2 _ _ (outsAt0 m c n _).2 = k0_pay2 _ _ (acc m c n _)
      rw [ih]

/-- The kernel's result: the accumulator after the last point, as contents of the 1×1 result array. -/
abbrev result (c : Dev nD) : Buf (Elt F) ((c : Thread nD τ).loc main_v0) :=
  acc m c 7 (by rw [show cfg0.N = 8 from N_0]; decide)

/-- At the last point the result's staging buffer is left at the accumulator's final contents. -/
theorem out_last (c : Dev nD) : (outsAt0 m c t0_7.val t0_7.isLt).1 = result m c := by
  have h0 : t0_7.val ≠ 0 := by decide
  have h1 : t0_7.val % 8 = 7 := by decide
  rw [outsAt0_C m c t0_7 h0 h1 (not_cond0_of_pos _ h0) (cond1_of_last _ h1)]
  dsimp only
  rw [out_C]
  exact congrArg (k0_pay2 (iblk m c 0 t0_7) (iblk m c 1 t0_7)) (outsAt_acc m c 6 _)

/-- The one write-back, after point 7, writes it: the window's one block, read through zero offsets, is the array. -/
theorem flushed_eq (c : Dev nD) (t : Fin cfg0.N) (hf : (cfg0.win 2).flush t = true) :
    (dats m 0 c).flushed 2 t = ((cfg0.win 2).blk t).view.read (Elt F) (result m c) := by
  have hN : cfg0.N = 8 := N_0
  have h7 : t.val = 7 := by have := (flush0_2 t).mp hf; have := t.isLt; omega
  obtain rfl : t = t0_7 := Fin.ext h7
  show (cfg0.win 2).cut (grid0.coords t0_7) ((dats m 0 c).after 2 t0_7) = _
  rw [after0_2, out_last]
  have hz' : (fun a => win0_2.index t0_7 a * main_v0.ty.shape.size a) = fun _ => 0 := funext fun a => by fin_cases a <;> decide
  exact (Memref.read_access_unit_zero (Elt F) main_v0 hz' (fun a => by rw [congrFun hz' a]; simp) (result m c)).symm

/-- So the result array ends holding the accumulator's final contents: point 7's block covers its one entry. -/
theorem final_o (c : Dev nD) : (dats m 0 c).arrAt 2 cfg0.N = result m c :=
  (dats m 0 c).arrAt_eq_of_cover 2 (result m c) (flushed_eq m c) fun i =>
    ⟨t0_7, (flush0_2 t0_7).mpr (by decide), by
      show i ∈ ((View.whole main_v0).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

/-- When the host lines begin, the result array holds the accumulator's final contents. -/
theorem Wfin_result (c : Dev nD) : Wfin m c (Proc.devRef .tc main_v0) = result m c :=
  (Wfin_v0 m c).trans (final_o m c)

/-- An input block's entry: row `p` of block `t` is row `32 t + p` of the array. -/
theorem iblk0_apply (c : Dev nD) (t : Fin cfg0.N) (p : Fin 32) (k : Fin 3) (h : Fin 128) (w : Fin 128) :
    (iblk m c 0 t : Vec F S32x3x128x128 .f32) (ValueIdx.ix4 p k h w)
      = m ((c : Thread nD τ).loc main_arg0) (ValueIdx.ix4 (⟨32 * t.val + p.val, by have := t.isLt; have hN : cfg0.N = 8 := N_0; omega⟩ : Fin 256) k h w) := by
  have hi : win0_0.index t 0 = t.val ∧ win0_0.index t 1 = 0 ∧ win0_0.index t 2 = 0 ∧ win0_0.index t 3 = 0 := by
    rcases fin_N0 t with rfl | rfl | rfl | rfl | rfl | rfl | rfl | rfl <;> decide
  unfold iblk
  rw [View.read_apply]
  show V m c main_arg0 _ = m (c.tc.loc main_arg0) _
  unfold V
  congr 1
  funext a
  apply Fin.ext
  match a with
  | ⟨0, _⟩ => show win0_0.index t 0 * 32 + 1 * p.val = 32 * t.val + p.val; rw [hi.1]; omega
  | ⟨1, _⟩ => show win0_0.index t 1 * 3 + 1 * k.val = k.val; rw [hi.2.1]; omega
  | ⟨2, _⟩ => show win0_0.index t 2 * 128 + 1 * h.val = h.val; rw [hi.2.2.1]; omega
  | ⟨3, _⟩ => show win0_0.index t 3 * 128 + 1 * w.val = w.val; rw [hi.2.2.2]; omega
theorem iblk1_apply (c : Dev nD) (t : Fin cfg0.N) (p : Fin 32) (k : Fin 3) (h : Fin 128) (w : Fin 128) :
    (iblk m c 1 t : Vec F S32x3x128x128 .f32) (ValueIdx.ix4 p k h w)
      = m ((c : Thread nD τ).loc main_arg1) (ValueIdx.ix4 (⟨32 * t.val + p.val, by have := t.isLt; have hN : cfg0.N = 8 := N_0; omega⟩ : Fin 256) k h w) := by
  have hi : win0_1.index t 0 = t.val ∧ win0_1.index t 1 = 0 ∧ win0_1.index t 2 = 0 ∧ win0_1.index t 3 = 0 := by
    rcases fin_N0 t with rfl | rfl | rfl | rfl | rfl | rfl | rfl | rfl <;> decide
  unfold iblk
  rw [View.read_apply]
  show V m c main_arg1 _ = m (c.tc.loc main_arg1) _
  unfold V
  congr 1
  funext a
  apply Fin.ext
  match a with
  | ⟨0, _⟩ => show win0_1.index t 0 * 32 + 1 * p.val = 32 * t.val + p.val; rw [hi.1]; omega
  | ⟨1, _⟩ => show win0_1.index t 1 * 3 + 1 * k.val = k.val; rw [hi.2.1]; omega
  | ⟨2, _⟩ => show win0_1.index t 2 * 128 + 1 * h.val = h.val; rw [hi.2.2.1]; omega
  | ⟨3, _⟩ => show win0_1.index t 3 * 128 + 1 * w.val = w.val; rw [hi.2.2.2]; omega

end Cert.KernelIdeal.Hand

end
-- ==== Proof.LibSumAxes.lean ====
/-
  Sums over the axes of a small-rank array, at the ideal (extended-real) values.

  A float sum over ONE axis of an array of rank 2, 3 or 4 read at an index written by its coordinates
  (`sum_axis0_of2`, `sum_axis1_of2`, `sum_axis2_of3`, `sum_axis3_of4`): the reduced index with the summed
  coordinate inserted is the index of one rank more. The column cast of a vector, [a] to [a, 1], reads the
  vector at the row (`shapeCast_a_a1_apply`). A sum over a rank-1 or rank-4 index set is the iterated sum over
  the coordinates (`sum_idx1`, `sum_idx4`). The host's sum over the three trailing axes of a rank-4 array is,
  at each leading coordinate, the initial value plus the triple sum over the trailing coordinates
  (`hostReduceAdd_tail3`); over the one axis of a vector it is the initial value plus the sum of the entries
  (`hostReduceAdd_vec`). Rows grouped in blocks: a sum over `n * m` rows is the sum over the `n` blocks of the
  sums over each block's `m` rows (`sum_blocks`).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace LibSumAxes

open Idealize.ShloMosaic Idealize.ShloMosaic.ValueIdx

variable {φ : FTy}

/-! ## One axis of a small-rank array summed, read at coordinates -/

/-- The last axis of a rank-4 array summed: at `(a, b, c)` the sum over `d` of the entries `(a, b, c, d)`. -/
theorem sum_axis3_of4 {n0 n1 n2 n3 : ℕ} (src : FVec Ideal ⟨4, ![n0, n1, n2, n3]⟩ φ) (acc : BitVec φ.bits)
    (h : (⟨4, ![n0, n1, n2, n3]⟩ : Shape).Reduces [3] ⟨3, ![n0, n1, n2]⟩) (hφ : FKind.Formats φ)
    (hacc : acc = FKind.add.neutral φ hφ) (a : Fin n0) (b : Fin n1) (c : Fin n2) :
    multiReduction .add [3] ⟨3, ![n0, n1, n2]⟩ src acc h hφ hacc (ix3 a b c) = ∑ d : Fin n3, src (ix4 a b c d) := by
  refine (Ideal.multiReduction_add_single src acc h hφ hacc (ix3 a b c)).trans ?_
  show ∑ d : Fin n3, src (h.lift (ix3 a b c) d) = _
  refine Finset.sum_congr rfl fun d _ => congrArg src (funext fun e => ?_)
  match e with
  | ⟨0, _⟩ => rfl
  | ⟨1, _⟩ => rfl
  | ⟨2, _⟩ => rfl
  | ⟨3, _⟩ => rfl

/-- The last axis of a rank-3 array summed: at `(a, b)` the sum over `c` of the entries `(a, b, c)`. -/
theorem sum_axis2_of3 {n0 n1 n2 : ℕ} (src : FVec Ideal ⟨3, ![n0, n1, n2]⟩ φ) (acc : BitVec φ.bits)
    (h : (⟨3, ![n0, n1, n2]⟩ : Shape).Reduces [2] ⟨2, ![n0, n1]⟩) (hφ : FKind.Formats φ)
    (hacc : acc = FKind.add.neutral φ hφ) (a : Fin n0) (b : Fin n1) :
    multiReduction .add [2] ⟨2, ![n0, n1]⟩ src acc h hφ hacc (ix2 a b) = ∑ c : Fin n2, src (ix3 a b c) := by
  refine (Ideal.multiReduction_add_single src acc h hφ hacc (ix2 a b)).trans ?_
  show ∑ c : Fin n2, src (h.lift (ix2 a b) c) = _
  refine Finset.sum_congr rfl fun c _ => congrArg src (funext fun e => ?_)
  match e with
  | ⟨0, _⟩ => rfl
  | ⟨1, _⟩ => rfl
  | ⟨2, _⟩ => rfl

/-- The last axis of a rank-2 array summed: at `a` the sum over `b` of the entries `(a, b)`. -/
theorem sum_axis1_of2 {n0 n1 : ℕ} (src : FVec Ideal ⟨2, ![n0, n1]⟩ φ) (acc : BitVec φ.bits)
    (h : (⟨2, ![n0, n1]⟩ : Shape).Reduces [1] ⟨1, ![n0]⟩) (hφ : FKind.Formats φ)
    (hacc : acc = FKind.add.neutral φ hφ) (a : Fin n0) :
    multiReduction .add [1] ⟨1, ![n0]⟩ src acc h hφ hacc (ix1 a) = ∑ b : Fin n1, src (ix2 a b) := by
  refine (Ideal.multiReduction_add_single src acc h hφ hacc (ix1 a)).trans ?_
  show ∑ b : Fin n1, src (h.lift (ix1 a) b) = _
  refine Finset.sum_congr rfl fun b _ => congrArg src (funext fun e => ?_)
  match e with
  | ⟨0, _⟩ => rfl
  | ⟨1, _⟩ => rfl

/-- The first axis of a rank-2 array summed: at `b` the sum over `a` of the entries `(a, b)`. -/
theorem sum_axis0_of2 {n0 n1 : ℕ} (src : FVec Ideal ⟨2, ![n0, n1]⟩ φ) (acc : BitVec φ.bits)
    (h : (⟨2, ![n0, n1]⟩ : Shape).Reduces [0] ⟨1, ![n1]⟩) (hφ : FKind.Formats φ)
    (hacc : acc = FKind.add.neutral φ hφ) (b : Fin n1) :
    multiReduction .add [0] ⟨1, ![n1]⟩ src acc h hφ hacc (ix1 b) = ∑ a : Fin n0, src (ix2 a b) := by
  refine (Ideal.multiReduction_add_single src acc h hφ hacc (ix1 b)).trans ?_
  show ∑ a : Fin n0, src (h.lift (ix1 b) a) = _
  refine Finset.sum_congr rfl fun a _ => congrArg src (funext fun e => ?_)
  match e with
  | ⟨0, _⟩ => rfl
  | ⟨1, _⟩ => rfl

/-! ## The column cast of a vector -/

/-- An `[a]` vector cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Sums over an index set by coordinates -/

/-- A rank-1 index set is its one coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- A rank-4 index set is the product of its four coordinate ranges … -/
def idxEquiv4 {n0 n1 n2 n3 : ℕ} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : ℕ} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## The host's sums -/

/-- The host's sum over the three trailing axes of a rank-4 array: at the leading coordinate `a`, the initial value
    plus the sum over `(b, c, d)` of the entries `(a, b, c, d)`. -/
theorem hostReduceAdd_tail3 {n0 n1 n2 n3 : ℕ}
    (h' : (⟨4, ![n0, n1, n2, n3]⟩ : Shape).ReducesTo [1, 2, 3] ⟨1, ![n0]⟩)
    (x : (⟨4, ![n0, n1, n2, n3]⟩ : Shape).Idx → EReal) (init : EReal) (a : Fin n0) :
    Ideal.hostReduceAdd h' x init (ix1 a) = init + ∑ b : Fin n1, ∑ c : Fin n2, ∑ d : Fin n3, x (ix4 a b c d) := by
  unfold Ideal.hostReduceAdd
  refine congrArg (init + ·) ?_
  have hdrop : ∀ (a' : Fin n0) (b : Fin n1) (c : Fin n2) (d : Fin n3), h'.drop (ix4 a' b c d) = ix1 a' := by
    intro a' b c d; funext e
    match e with
    | ⟨0, _⟩ => rfl
  rw [Finset.sum_filter, sum_idx4, Finset.sum_eq_single a]
  · refine Finset.sum_congr rfl fun b _ => Finset.sum_congr rfl fun c _ => Finset.sum_congr rfl fun d _ => ?_
    rw [if_pos (hdrop a b c d)]
  · intro a' _ hne
    refine Finset.sum_eq_zero fun b _ => Finset.sum_eq_zero fun c _ => Finset.sum_eq_zero fun d _ => ?_
    rw [if_neg]
    rw [hdrop]
    intro e
    exact hne (congrFun e 0)
  · intro h; exact absurd (Finset.mem_univ a) h

/-- The host's sum over the one axis of a vector: the initial value plus the sum of the entries. -/
theorem hostReduceAdd_vec {n : ℕ} (h' : (⟨1, ![n]⟩ : Shape).ReducesTo [0] ⟨0, ![]⟩)
    (x : (⟨1, ![n]⟩ : Shape).Idx → EReal) (init : EReal) (j : (⟨0, ![]⟩ : Shape).Idx) :
    Ideal.hostReduceAdd h' x init j = init + ∑ a : Fin n, x (ix1 a) := by
  rw [Ideal.hostReduceAdd_total h' (fun b => b.elim0) x init j, sum_idx1]

/-! ## Rows in blocks -/

/-- A sum over `n * m` rows is the sum over the `n` blocks of the sums over each block's `m` rows. -/
theorem sum_blocks {M : Type*} [AddCommMonoid M] (n m : ℕ) (f : Fin (n * m) → M) :
    ∑ t : Fin n, ∑ p : Fin m, f (finProdFinEquiv (t, p)) = ∑ b : Fin (n * m), f b := by
  rw [← Fintype.sum_prod_type (f := fun x : Fin n × Fin m => f (finProdFinEquiv x))]
  exact Equiv.sum_comp finProdFinEquiv f

end LibSumAxes

end
-- ==== Proof.SumLaw.lean ====
/-
  The arithmetic of the total, at the ideal (extended-real) values: the kernel body's payloads read at an index
  as plain sums of the magnitudes of the differences, the reference's nested reduction as the sum over all
  entries, and the regrouping of the 256 rows in eight blocks of thirty-two.
-/
import proofs.«100174_j55533927137965_2_alg».proof.Proof.Gen.KernelIdeal.Skeleton
import proofs.«100174_j55533927137965_2_alg».proof.Proof.Gen.ReferenceIdeal
import proofs.«100174_j55533927137965_2_alg».proof.Proof.LibSumAxes

noncomputable section

open scoped BigOperators

namespace Cert.KernelIdeal.SumLaw

open Idealize.ShloMosaic Idealize.ShloMosaic.ValueIdx

/-- the magnitude of a difference of two extended reals, as the float operations compute it at the ideal values -/
def dist (a b : EReal) : EReal := max (a - b) (-(a - b))

/-- The magnitude of a difference of two vectors, read at an index. -/
theorem absf_subf_apply {S : Shape} (a b : FVec Ideal S .f32) (i : S.Idx) : absf (subf a b) i = dist (a i) (b i) := rfl

/-- The host's magnitude of a difference of two arrays, read at an index. -/
theorem hostAbsf_subf_apply {S : Shape} (a b : FVec Ideal S .f32) (i : S.Idx) :
    Host.absf (subf a b) i = dist (a i) (b i) := rfl

/-- The first payload is the zero of the accumulator. -/
theorem pay1_apply (j : S1x1.Idx) : Gen.k0_pay1 (F := Ideal) j = 0 := by
  unfold Gen.k0_pay1
  refine (congrFun (shapeCast_self _ _) j).trans ?_
  exact Ideal.ofBits_zero_f32

/-- The second payload: the accumulator plus the sum of the magnitudes of the differences over the block. -/
theorem pay2_apply (v3 v4 : Vec Ideal S32x3x128x128 .f32) (v13 : Vec Ideal S1x1 .f32) (j : S1x1.Idx) :
    Gen.k0_pay2 (F := Ideal) v3 v4 v13 j
      = v13 j + ∑ p : Fin 32, ∑ c : Fin 3, ∑ h : Fin 128, ∑ w : Fin 128,
          dist (v3 (ix4 p c h w)) (v4 (ix4 p c h w)) := by
  obtain ⟨u, v, rfl⟩ : ∃ u v : Fin 1, j = ix2 u v := ⟨j 0, j 1, eq_ix2 j⟩
  unfold Gen.k0_pay2
  refine (congrFun (shapeCast_self _ _) (ix2 u v)).trans ?_
  refine congrArg (v13 (ix2 u v) + ·) ?_
  refine (shapeCast_a_1a_apply _ _ u v).trans ?_
  refine (LibSumAxes.sum_axis0_of2 _ _ _ _ _ v).trans ?_
  refine Finset.sum_congr rfl fun p _ => ?_
  refine (LibSumAxes.shapeCast_a_a1_apply _ _ p v).trans ?_
  refine (LibSumAxes.sum_axis1_of2 _ _ _ _ _ p).trans ?_
  refine Finset.sum_congr rfl fun c _ => ?_
  refine (LibSumAxes.sum_axis2_of3 _ _ _ _ _ p c).trans ?_
  refine Finset.sum_congr rfl fun h _ => ?_
  refine (LibSumAxes.sum_axis3_of4 _ _ _ _ _ p c h).trans ?_
  rfl

/-- eight blocks of thirty-two rows are the 256 rows -/
theorem regroup (f : Fin 256 → EReal) :
    ∑ t : Fin 8, ∑ p : Fin 32, f ⟨32 * t.val + p.val, by omega⟩ = ∑ b : Fin 256, f b := by
  refine Eq.trans ?_ (LibSumAxes.sum_blocks 8 32 f)
  refine Finset.sum_congr rfl fun t _ => Finset.sum_congr rfl fun p _ => congrArg f (Fin.ext ?_)
  show 32 * t.val + p.val = p.val + 32 * t.val
  omega

/-- the reference's nested reduction is the sum over all 256·3·128·128 entries (for any proofs of the two shape
    facts and of the scalar shape's non-emptiness, so that it rewrites the printed term whichever way they are cited) -/
theorem ref_total (x x' : FVec Ideal Cert.ReferenceIdeal.S256x3x128x128 .f32)
    (h1 : Cert.ReferenceIdeal.S256x3x128x128.ReducesTo [1, 2, 3] Cert.ReferenceIdeal.S256)
    (h2 : Cert.ReferenceIdeal.S256.ReducesTo [0] Cert.ReferenceIdeal.S_)
    (hu : 0 < Cert.ReferenceIdeal.S_.numel) (j : Cert.ReferenceIdeal.S_.Idx) :
    Host.reduceAdd (F := Ideal)
        (Host.reduceAdd (F := Ideal) (Host.absf (subf x x'))
          (constant (F := Ideal) Cert.ReferenceIdeal.S_ .f32 0x00000000#32) h1 hu)
        (constant (F := Ideal) Cert.ReferenceIdeal.S_ .f32 0x00000000#32) h2 hu j
      = ∑ b : Fin 256, ∑ c : Fin 3, ∑ h : Fin 128, ∑ w : Fin 128,
          dist (x (ix4 b c h w)) (x' (ix4 b c h w)) := by
  have hz : constant (F := Ideal) Cert.ReferenceIdeal.S_ .f32 0x00000000#32 (Shape.Idx.first hu) = (0 : EReal) :=
    Ideal.ofBits_zero_f32
  show Ideal.hostReduceAdd h2
      (Ideal.hostReduceAdd h1 (Host.absf (subf x x'))
        (constant (F := Ideal) Cert.ReferenceIdeal.S_ .f32 0x00000000#32 (Shape.Idx.first hu)))
      (constant (F := Ideal) Cert.ReferenceIdeal.S_ .f32 0x00000000#32 (Shape.Idx.first hu)) j = _
  rw [hz]
  refine (LibSumAxes.hostReduceAdd_vec h2 _ _ j).trans ?_
  rw [zero_add]
  refine Finset.sum_congr rfl fun b _ => ?_
  refine (LibSumAxes.hostReduceAdd_tail3 h1 _ _ b).trans ?_
  rw [zero_add]
  rfl

end Cert.KernelIdeal.SumLaw

end
-- ==== Proof.RefOps.lean ====
import proofs.«100174_j55533927137965_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations in order, each called function's body written out at its call over the call's own
    buffers. The first eight total |x - x'| over every element and divide by 256. Then on the first three columns:
    the squared distance of each mu entry to its nearest of the ten positions, and to the position indexed by the
    cleaned label (NaN ↦ 0, ±∞ ↦ the extreme finite values, clipped to [0, 9], truncated to an integer, a negative one
    wrapped by +10); the first where the label is NaN, the second otherwise, summed over rows, divided by 256, summed
    over the three columns. Then on columns 3 … 6: where the label is a number the squared difference of mu to it,
    otherwise the square of max(|mu| - 10, 0); summed over columns, then rows, divided by 256. Last the two sums added,
    and the first quotient added to that. -/
abbrev ops : List (HloOp τ sig (Elt F)) :=
  [ binary main_arg0 main_arg1 main_v0 (subf : (⟨S256x3x128x128, .f32⟩ : BufTy).Contents (Elt F) → (⟨S256x3x128x128, .f32⟩ : BufTy).Contents (Elt F) → (⟨S256x3x128x128, .f32⟩ : BufTy).Contents (Elt F)),
    unary main_v0 main_v1 (Host.absf : (⟨S256x3x128x128, .f32⟩ : BufTy).Contents (Elt F) → (⟨S256x3x128x128, .f32⟩ : BufTy).Contents (Elt F)),
    nullary main_cst (constant S_ .f32 0x00000000#32),
    binary main_v1 main_cst main_v2 ((fun x v => Host.reduceAdd x v reducesTo_S256x3x128x128_S256_d1_2_3 h_S_) : (⟨S256x3x128x128, .f32⟩ : BufTy).Contents (Elt F) → (⟨S_, .f32⟩ : BufTy).Contents (Elt F) → (⟨S256, .f32⟩ : BufTy).Contents (Elt F)),
    nullary main_cst_0 (constant S_ .f32 0x00000000#32),
    binary main_v2 main_cst_0 main_v3 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_1 (constant S_ .f32 0x43800000#32),
    binary main_v3 main_cst_1 main_v4 (Host.divf : (⟨S_, .f32⟩ : BufTy).Contents (Elt F) → (⟨S_, .f32⟩ : BufTy).Contents (Elt F) → (⟨S_, .f32⟩ : BufTy).Contents (Elt F)),
    unary main_arg3 main_v5 ((extractStridedSlice S256x3 ![0, 0] · slices_S256x32_S256x3_0_0) : (⟨S256x32, .f32⟩ : BufTy).Contents (Elt F) → (⟨S256x3, .f32⟩ : BufTy).Contents (Elt F)),
    unary main_arg2 main_v6 ((extractStridedSlice S256x3 ![0, 0] · slices_S256x7_S256x3_0_0) : (⟨S256x7, .f32⟩ : BufTy).Contents (Elt F) → (⟨S256x3, .f32⟩ : BufTy).Contents (Elt F)),
    binary main_v6 main_v6 main_v7 (cmpf .une : (⟨S256x3, .f32⟩ : BufTy).Contents (Elt F) → (⟨S256x3, .f32⟩ : BufTy).Contents (Elt F) → (⟨S256x3, .i1⟩ : BufTy).Contents (Elt F)),
    unary main_v5 main_v8 (broadcastInDim S256x3x1 ![0, 1] bcast_S256x3_S256x3x1_0_1 : (⟨S256x3, .f32⟩ : BufTy).Contents (Elt F) → (⟨S256x3x1, .f32⟩ : BufTy).Contents (Elt F)),
    unary main_arg4 main_v9 (broadcastInDim S1x1x10 ![2] bcast_S10_S1x1x10_2 : (⟨S10, .f32⟩ : BufTy).Contents (Elt F) → (⟨S1x1x10, .f32⟩ : BufTy).Contents (Elt F)),
    unary main_v8 main_v10 (broadcastInDim S256x3x10 ![0, 1, 2] bcast_S256x3x1_S256x3x10_0_1_2 : (⟨S256x3x1, .f32⟩ : BufTy).Contents (Elt F) → (⟨S256x3x10, .f32⟩ : BufTy).Contents (Elt F)),
    unary main_v9 main_v11 (broadcastInDim S256x3x10 ![0, 1, 2] bcast_S1x1x10_S256x3x10_0_1_2 : (⟨S1x1x10, .f32⟩ : BufTy).Contents (Elt F) → (⟨S256x3x10, .f32⟩ : BufTy).Contents (Elt F)),
    binary main_v10 main_v11 main_v12 (subf : (⟨S256x3x10, .f32⟩ : BufTy).Contents (Elt F) → (⟨S256x3x10, .f32⟩ : BufTy).Contents (Elt F) → (⟨S256x3x10, .f32⟩ : BufTy).Contents (Elt F)),
    binary main_v12 main_v12 main_v13 (mulf : (⟨S256x3x10, .f32⟩ : BufTy).Contents (Elt F) → (⟨S256x3x10, .f32⟩ : BufTy).Contents (Elt F) → (⟨S256x3x10, .f32⟩ : BufTy).Contents (Elt F)),
    nullary main_cst_2 (constant S_ .f32 0x7F800000#32),
    binary main_v13 main_cst_2 main_v14 ((fun x v => Host.reduce FloatOps.minimumf x v reducesTo_S256x3x10_S256x3_d2 h_S_) : (⟨S256x3x10, .f32⟩ : BufTy).Contents (Elt F) → (⟨S_, .f32⟩ : BufTy).Contents (Elt F) → (⟨S256x3, .f32⟩ : BufTy).Contents (Elt F)),
    -- nan_to_num on y[:, 0:3]: NaN ↦ 0, then +∞ ↦ the largest finite value, then -∞ ↦ the smallest
    TRef.binary (.of main_v6 : TRef sig ⟨S256x3, .f32⟩) (.of main_v6 : TRef sig ⟨S256x3, .f32⟩) main_call0.v0 (cmpf .une),
    TRef.nullary main_call0.cst (constant S_ .f32 0x00000000#32),
    TRef.unary main_call0.cst main_call0.call0.v0 (broadcastInDim S256x3 ![] bcast_S_S256x3),
    TRef.ternary main_call0.v0 main_call0.call0.v0 (.of main_v6 : TRef sig ⟨S256x3, .f32⟩) main_call0.call0.v1 select,
    TRef.nullary main_call0.cst_0 (constant S_ .f32 0x7F800000#32),
    TRef.unary main_call0.cst_0 main_call0.v2 (broadcastInDim S256x3 ![] bcast_S_S256x3),
    TRef.binary main_call0.call0.v1 main_call0.v2 main_call0.v3 (cmpf .oeq),
    TRef.nullary main_call0.cst_1 (constant S_ .f32 0x7F7FFFFF#32),
    TRef.unary main_call0.cst_1 main_call0.call1.v0 (broadcastInDim S256x3 ![] bcast_S_S256x3),
    TRef.ternary main_call0.v3 main_call0.call1.v0 main_call0.call0.v1 main_call0.call1.v1 select,
    TRef.nullary main_call0.cst_2 (constant S_ .f32 0xFF800000#32),
    TRef.unary main_call0.cst_2 main_call0.v5 (broadcastInDim S256x3 ![] bcast_S_S256x3),
    TRef.binary main_call0.call1.v1 main_call0.v5 main_call0.v6 (cmpf .oeq),
    TRef.nullary main_call0.cst_3 (constant S_ .f32 0xFF7FFFFF#32),
    TRef.unary main_call0.cst_3 main_call0.call2.v0 (broadcastInDim S256x3 ![] bcast_S_S256x3),
    TRef.ternary main_call0.v6 main_call0.call2.v0 main_call0.call1.v1 main_call0.call2.v1 select,
    nullary main_c (constantI S_ 32 0#32),
    nullary main_c_3 (constantI S_ 32 9#32),
    -- clip to [0, 9]: min(9, max(0, ·))
    TRef.unary (.of main_c : TRef sig ⟨S_, .i32⟩) main_call1.v0 (sitofp .f32),
    TRef.unary main_call1.v0 main_call1.v1 (broadcastInDim S256x3 ![] bcast_S_S256x3),
    TRef.binary main_call1.v1 (.of main_v15 : TRef sig ⟨S256x3, .f32⟩) main_call1.v2 maximumf,
    TRef.unary (.of main_c_3 : TRef sig ⟨S_, .i32⟩) main_call1.v3 (sitofp .f32),
    TRef.unary main_call1.v3 main_call1.v4 (broadcastInDim S256x3 ![] bcast_S_S256x3),
    TRef.binary main_call1.v4 main_call1.v2 main_call1.v5 minimumf,
    unary main_v16 main_v17 (fptosi 32 : (⟨S256x3, .f32⟩ : BufTy).Contents (Elt F) → (⟨S256x3, .i32⟩ : BufTy).Contents (Elt F)),
    nullary main_c_4 (constantI S_ 32 0#32),
    unary main_c_4 main_v18 (broadcastInDim S256x3 ![] bcast_S_S256x3 : (⟨S_, .i32⟩ : BufTy).Contents (Elt F) → (⟨S256x3, .i32⟩ : BufTy).Contents (Elt F)),
    binary main_v17 main_v18 main_v19 (cmpi .slt : (⟨S256x3, .i32⟩ : BufTy).Contents (Elt F) → (⟨S256x3, .i32⟩ : BufTy).Contents (Elt F) → (⟨S256x3, .i1⟩ : BufTy).Contents (Elt F)),
    nullary main_c_5 (constantI S_ 32 10#32),
    unary main_c_5 main_v20 (broadcastInDim S256x3 ![] bcast_S_S256x3 : (⟨S_, .i32⟩ : BufTy).Contents (Elt F) → (⟨S256x3, .i32⟩ : BufTy).Contents (Elt F)),
    binary main_v17 main_v20 main_v21 (addi : (⟨S256x3, .i32⟩ : BufTy).Contents (Elt F) → (⟨S256x3, .i32⟩ : BufTy).Contents (Elt F) → (⟨S256x3, .i32⟩ : BufTy).Contents (Elt F)),
    ternary main_v19 main_v21 main_v17 main_v22 (select : (⟨S256x3, .i1⟩ : BufTy).Contents (Elt F) → (⟨S256x3, .i32⟩ : BufTy).Contents (Elt F) → (⟨S256x3, .i32⟩ : BufTy).Contents (Elt F) → (⟨S256x3, .i32⟩ : BufTy).Contents (Elt F)),
    unary main_v22 main_v23 (broadcastInDim S256x3x1 ![0, 1] bcast_S256x3_S256x3x1_0_1 : (⟨S256x3, .i32⟩ : BufTy).Contents (Elt F) → (⟨S256x3x1, .i32⟩ : BufTy).Contents (Elt F)),
    binary main_arg4 main_v23 main_v24 ((fun x i => Host.gather gather_S10_S256x3x1_S256x3_n_0_n_n_0_2_1 x i) : (⟨S10, .f32⟩ : BufTy).Contents (Elt F) → (⟨S256x3x1, .i32⟩ : BufTy).Contents (Elt F) → (⟨S256x3, .f32⟩ : BufTy).Contents (Elt F)),
    binary main_v5 main_v24 main_v25 (subf : (⟨S256x3, .f32⟩ : BufTy).Contents (Elt F) → (⟨S256x3, .f32⟩ : BufTy).Contents (Elt F) → (⟨S256x3, .f32⟩ : BufTy).Contents (Elt F)),
    binary main_v25 main_v25 main_v26 (mulf : (⟨S256x3, .f32⟩ : BufTy).Contents (Elt F) → (⟨S256x3, .f32⟩ : BufTy).Contents (Elt F) → (⟨S256x3, .f32⟩ : BufTy).Contents (Elt F)),
    -- where y[:, 0:3] is NaN take the nearest-position distance, else the distance to the indexed position
    TRef.ternary (.of main_v7 : TRef sig ⟨S256x3, .i1⟩) (.of main_v14 : TRef sig ⟨S256x3, .f32⟩) (.of main_v26 : TRef sig ⟨S256x3, .f32⟩) main_call2.v0 select,
    nullary main_cst_6 (constant S_ .f32 0x00000000#32),
    binary main_v27 main_cst_6 main_v28 ((fun x v => Host.reduceAdd x v reducesTo_S256x3_S3_d0 h_S_) : (⟨S256x3, .f32⟩ : BufTy).Contents (Elt F) → (⟨S_, .f32⟩ : BufTy).Contents (Elt F) → (⟨S3, .f32⟩ : BufTy).Contents (Elt F)),
    nullary main_cst_7 (constant S_ .f32 0x43800000#32),
    unary main_cst_7 main_v29 (broadcastInDim S3 ![] bcast_S_S3 : (⟨S_, .f32⟩ : BufTy).Contents (Elt F) → (⟨S3, .f32⟩ : BufTy).Contents (Elt F)),
    binary main_v28 main_v29 main_v30 (Host.divf : (⟨S3, .f32⟩ : BufTy).Contents (Elt F) → (⟨S3, .f32⟩ : BufTy).Contents (Elt F) → (⟨S3, .f32⟩ : BufTy).Contents (Elt F)),
    nullary main_cst_8 (constant S_ .f32 0x00000000#32),
    binary main_v30 main_cst_8 main_v31 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    unary main_arg3 main_v32 ((extractStridedSlice S256x4 ![0, 3] · slices_S256x32_S256x4_0_3) : (⟨S256x32, .f32⟩ : BufTy).Contents (Elt F) → (⟨S256x4, .f32⟩ : BufTy).Contents (Elt F)),
    unary main_arg2 main_v33 ((extractStridedSlice S256x4 ![0, 3] · slices_S256x7_S256x4_0_3) : (⟨S256x7, .f32⟩ : BufTy).Contents (Elt F) → (⟨S256x4, .f32⟩ : BufTy).Contents (Elt F)),
    binary main_v33 main_v33 main_v34 (cmpf .une : (⟨S256x4, .f32⟩ : BufTy).Contents (Elt F) → (⟨S256x4, .f32⟩ : BufTy).Contents (Elt F) → (⟨S256x4, .i1⟩ : BufTy).Contents (Elt F)),
    unary main_v34 main_v35 (noti : (⟨S256x4, .i1⟩ : BufTy).Contents (Elt F) → (⟨S256x4, .i1⟩ : BufTy).Contents (Elt F)),
    nullary main_cst_9 (constant S_ .f32 0x00000000#32),
    -- where y[:, 3:7] is a number keep it, else 0
    TRef.unary (.of main_cst_9 : TRef sig ⟨S_, .f32⟩) main_call3.v0 id,
    TRef.unary main_call3.v0 main_call3.v1 (broadcastInDim S256x4 ![] bcast_S_S256x4),
    TRef.ternary (.of main_v35 : TRef sig ⟨S256x4, .i1⟩) (.of main_v33 : TRef sig ⟨S256x4, .f32⟩) main_call3.v1 main_call3.v2 select,
    binary main_v32 main_v36 main_v37 (subf : (⟨S256x4, .f32⟩ : BufTy).Contents (Elt F) → (⟨S256x4, .f32⟩ : BufTy).Contents (Elt F) → (⟨S256x4, .f32⟩ : BufTy).Contents (Elt F)),
    binary main_v37 main_v37 main_v38 (mulf : (⟨S256x4, .f32⟩ : BufTy).Contents (Elt F) → (⟨S256x4, .f32⟩ : BufTy).Contents (Elt F) → (⟨S256x4, .f32⟩ : BufTy).Contents (Elt F)),
    nullary main_cst_10 (constant S_ .f32 0x00000000#32),
    -- where y[:, 3:7] is a number keep the squared difference, else 0
    TRef.unary (.of main_cst_10 : TRef sig ⟨S_, .f32⟩) main_call4.v0 id,
    TRef.unary main_call4.v0 main_call4.v1 (broadcastInDim S256x4 ![] bcast_S_S256x4),
    TRef.ternary (.of main_v35 : TRef sig ⟨S256x4, .i1⟩) (.of main_v38 : TRef sig ⟨S256x4, .f32⟩) main_call4.v1 main_call4.v2 select,
    unary main_v32 main_v40 (Host.absf : (⟨S256x4, .f32⟩ : BufTy).Contents (Elt F) → (⟨S256x4, .f32⟩ : BufTy).Contents (Elt F)),
    nullary main_cst_11 (constant S_ .f32 0x41200000#32),
    unary main_cst_11 main_v41 (broadcastInDim S256x4 ![] bcast_S_S256x4 : (⟨S_, .f32⟩ : BufTy).Contents (Elt F) → (⟨S256x4, .f32⟩ : BufTy).Contents (Elt F)),
    binary main_v40 main_v41 main_v42 (subf : (⟨S256x4, .f32⟩ : BufTy).Contents (Elt F) → (⟨S256x4, .f32⟩ : BufTy).Contents (Elt F) → (⟨S256x4, .f32⟩ : BufTy).Contents (Elt F)),
    -- relu: max(·, 0)
    TRef.nullary main_call5.cst (constant S_ .f32 0x00000000#32),
    TRef.unary main_call5.cst main_call5.v0 (broadcastInDim S256x4 ![] bcast_S_S256x4),
    TRef.binary (.of main_v42 : TRef sig ⟨S256x4, .f32⟩) main_call5.v0 main_call5.v1 maximumf,
    binary main_v43 main_v43 main_v44 (mulf : (⟨S256x4, .f32⟩ : BufTy).Contents (Elt F) → (⟨S256x4, .f32⟩ : BufTy).Contents (Elt F) → (⟨S256x4, .f32⟩ : BufTy).Contents (Elt F)),
    -- where y[:, 3:7] is a number the masked squared difference, else the squared overshoot
    TRef.ternary (.of main_v35 : TRef sig ⟨S256x4, .i1⟩) (.of main_v39 : TRef sig ⟨S256x4, .f32⟩) (.of main_v44 : TRef sig ⟨S256x4, .f32⟩) main_call6.v0 select,
    nullary main_cst_12 (constant S_ .f32 0x00000000#32),
    binary main_v45 main_cst_12 main_v46 ((fun x v => Host.reduceAdd x v reducesTo_S256x4_S256_d1 h_S_) : (⟨S256x4, .f32⟩ : BufTy).Contents (Elt F) → (⟨S_, .f32⟩ : BufTy).Contents (Elt F) → (⟨S256, .f32⟩ : BufTy).Contents (Elt F)),
    nullary main_cst_13 (constant S_ .f32 0x00000000#32),
    binary main_v46 main_cst_13 main_v47 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_14 (constant S_ .f32 0x43800000#32),
    binary main_v47 main_cst_14 main_v48 (Host.divf : (⟨S_, .f32⟩ : BufTy).Contents (Elt F) → (⟨S_, .f32⟩ : BufTy).Contents (Elt F) → (⟨S_, .f32⟩ : BufTy).Contents (Elt F)),
    binary main_v31 main_v48 main_v49 (addf : (⟨S_, .f32⟩ : BufTy).Contents (Elt F) → (⟨S_, .f32⟩ : BufTy).Contents (Elt F) → (⟨S_, .f32⟩ : BufTy).Contents (Elt F)),
    binary main_v4 main_v49 main_v50 (addf : (⟨S_, .f32⟩ : BufTy).Contents (Elt F) → (⟨S_, .f32⟩ : BufTy).Contents (Elt F) → (⟨S_, .f32⟩ : BufTy).Contents (Elt F)) ]

-- ninety-four binds re-associated: the rewrite under the chain recurses once per statement
set_option maxRecDepth 4096 in
set_option maxHeartbeats 4000000 in
/-- @main is that straight line: its two windows in order, the called functions' definitions unfolded at their calls
    and the records at their fields; both sides are the same chain of steps once sequencing is reassociated. -/
theorem main_eq (c : Dev nD) : main (F := F) c = seq ops := by
  simp only [main, main_part0, main_part1, fn_nan_to_num.body, fn_where.body, fn_clip.body, fn_where_0.body,
    fn_where_1.body, fn_relu.body, fn_where_2.body, seq, bind_assoc, pure_bind]

/-- No buffer of the signature is scoped: every one is a tensor value's. -/
theorem scopedRefs_eq : (Finset.univ.filter fun b : Ref sig .tc => b.isScoped) = ∅ := by decide
/-- The signature has no semaphore. -/
theorem scopedSems_eq : (Finset.univ.filter fun sm : SemLoc sig => sm.isScoped .tc) = ∅ := by decide

/-- Each operation touches TensorCore references only. -/
theorem ops_sub : (ops : List (HloOp τ sig (Elt F))).Forall fun op => op.bufs ⊆ tcRefs τ sig :=
  ⟨binary_bufs_sub .., unary_bufs_sub .., nullary_bufs_sub .., binary_bufs_sub .., nullary_bufs_sub .., binary_bufs_sub ..,
    nullary_bufs_sub .., binary_bufs_sub .., unary_bufs_sub .., unary_bufs_sub .., binary_bufs_sub .., unary_bufs_sub ..,
    unary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., nullary_bufs_sub ..,
    unary_bufs_sub .., binary_bufs_sub .., nullary_bufs_sub .., unary_bufs_sub .., ternary_bufs_sub .., nullary_bufs_sub ..,
    unary_bufs_sub .., binary_bufs_sub .., nullary_bufs_sub .., unary_bufs_sub .., ternary_bufs_sub .., nullary_bufs_sub ..,
    nullary_bufs_sub .., unary_bufs_sub .., unary_bufs_sub .., binary_bufs_sub .., unary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., ternary_bufs_sub .., nullary_bufs_sub .., binary_bufs_sub .., nullary_bufs_sub .., unary_bufs_sub ..,
    binary_bufs_sub .., nullary_bufs_sub .., binary_bufs_sub .., unary_bufs_sub .., unary_bufs_sub .., binary_bufs_sub ..,
    unary_bufs_sub .., nullary_bufs_sub .., unary_bufs_sub .., unary_bufs_sub .., ternary_bufs_sub .., binary_bufs_sub ..,
    binary_bufs_sub .., nullary_bufs_sub .., unary_bufs_sub .., unary_bufs_sub .., ternary_bufs_sub .., unary_bufs_sub ..,
    nullary_bufs_sub .., unary_bufs_sub .., binary_bufs_sub .., nullary_bufs_sub .., unary_bufs_sub .., binary_bufs_sub ..,
    binary_bufs_sub .., ternary_bufs_sub .., nullary_bufs_sub .., binary_bufs_sub .., nullary_bufs_sub .., binary_bufs_sub ..,
    nullary_bufs_sub .., binary_bufs_sub .., binary_bufs_sub .., binary_bufs_sub ..⟩

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefVals.lean ====
import proofs.«100174_j55533927137965_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reconstruction term: the total of |x - x'| over every element — summed within each of the 256 leading
    slices, then across them — divided by 256. -/
def recon (x x' : (⟨S256x3x128x128, .f32⟩ : BufTy).Contents (Elt F)) : (⟨S_, .f32⟩ : BufTy).Contents (Elt F) :=
  Host.divf
    (Host.reduceAdd
      (Host.reduceAdd (Host.absf (subf x x')) (constant S_ .f32 0x00000000#32) reducesTo_S256x3x128x128_S256_d1_2_3 h_S_)
      (constant S_ .f32 0x00000000#32) reducesTo_S256_S_d0 h_S_)
    (constant S_ .f32 0x43800000#32)

/-- The divergence term, a function of the labels `y` (256 × 7), the means `mu` (256 × 32) and the ten positions `pos`.

    Discrete part, over rows r and the columns c < 3. Let d_near(r, c) be the least of (mu(r, c) - pos(k))² over the
    ten k (a minimum started at +∞), and d_at(r, c) = (mu(r, c) - pos(i(r, c)))², where i(r, c) is the label y(r, c)
    with NaN replaced by 0, +∞ by the largest and -∞ by the smallest finite value, then clipped to [0, 9], truncated to
    a 32-bit integer and, if negative, raised by 10. Where y(r, c) is NaN take d_near, otherwise d_at; sum over r,
    divide by 256, sum over c.

    Linear part, over rows r and the columns 3 ≤ c < 7. Where y(r, c) is a number take (mu(r, c) - y(r, c))²,
    otherwise max(|mu(r, c)| - 10, 0)²; sum over c, then over r, divide by 256.

    The value is the discrete part plus the linear part. Each `have` below is one tensor value of the program; the
    NaN masks and the column slices are shared by their uses. -/
def kld (y : (⟨S256x7, .f32⟩ : BufTy).Contents (Elt F)) (mu : (⟨S256x32, .f32⟩ : BufTy).Contents (Elt F)) (pos : (⟨S10, .f32⟩ : BufTy).Contents (Elt F)) :
    (⟨S_, .f32⟩ : BufTy).Contents (Elt F) :=
  -- the first three columns of the means and of the labels; where a label is NaN
  have mu3 : (⟨S256x3, .f32⟩ : BufTy).Contents (Elt F) := extractStridedSlice S256x3 ![0, 0] mu slices_S256x32_S256x3_0_0
  have y3 : (⟨S256x3, .f32⟩ : BufTy).Contents (Elt F) := extractStridedSlice S256x3 ![0, 0] y slices_S256x7_S256x3_0_0
  have nan3 : (⟨S256x3, .i1⟩ : BufTy).Contents (Elt F) := cmpf .une y3 y3
  -- (mu(r, c) - pos(k))² over r, c, k, and its least value over k
  have muB : (⟨S256x3x10, .f32⟩ : BufTy).Contents (Elt F) :=
    broadcastInDim S256x3x10 ![0, 1, 2] bcast_S256x3x1_S256x3x10_0_1_2 (broadcastInDim S256x3x1 ![0, 1] bcast_S256x3_S256x3x1_0_1 mu3)
  have posB : (⟨S256x3x10, .f32⟩ : BufTy).Contents (Elt F) :=
    broadcastInDim S256x3x10 ![0, 1, 2] bcast_S1x1x10_S256x3x10_0_1_2 (broadcastInDim S1x1x10 ![2] bcast_S10_S1x1x10_2 pos)
  have diff : (⟨S256x3x10, .f32⟩ : BufTy).Contents (Elt F) := subf muB posB
  have sq : (⟨S256x3x10, .f32⟩ : BufTy).Contents (Elt F) := mulf diff diff
  have dNear : (⟨S256x3, .f32⟩ : BufTy).Contents (Elt F) :=
    Host.reduce FloatOps.minimumf sq (constant S_ .f32 0x7F800000#32) reducesTo_S256x3x10_S256x3_d2 h_S_
  -- the label cleaned: NaN ↦ 0, then +∞ ↦ the largest finite value, then -∞ ↦ the smallest
  have isNan : (⟨S256x3, .i1⟩ : BufTy).Contents (Elt F) := cmpf .une y3 y3
  have noNan : (⟨S256x3, .f32⟩ : BufTy).Contents (Elt F) :=
    select isNan (broadcastInDim S256x3 ![] bcast_S_S256x3 (constant S_ .f32 0x00000000#32)) y3
  have isPInf : (⟨S256x3, .i1⟩ : BufTy).Contents (Elt F) :=
    cmpf .oeq noNan (broadcastInDim S256x3 ![] bcast_S_S256x3 (constant S_ .f32 0x7F800000#32))
  have noPInf : (⟨S256x3, .f32⟩ : BufTy).Contents (Elt F) :=
    select isPInf (broadcastInDim S256x3 ![] bcast_S_S256x3 (constant S_ .f32 0x7F7FFFFF#32)) noNan
  have isNInf : (⟨S256x3, .i1⟩ : BufTy).Contents (Elt F) :=
    cmpf .oeq noPInf (broadcastInDim S256x3 ![] bcast_S_S256x3 (constant S_ .f32 0xFF800000#32))
  have clean : (⟨S256x3, .f32⟩ : BufTy).Contents (Elt F) :=
    select isNInf (broadcastInDim S256x3 ![] bcast_S_S256x3 (constant S_ .f32 0xFF7FFFFF#32)) noPInf
  -- clipped to [0, 9], truncated to an integer, a negative one raised by 10
  have lo : (⟨S256x3, .f32⟩ : BufTy).Contents (Elt F) :=
    maximumf (broadcastInDim S256x3 ![] bcast_S_S256x3 (sitofp .f32 (constantI S_ 32 0#32))) clean
  have clipped : (⟨S256x3, .f32⟩ : BufTy).Contents (Elt F) :=
    minimumf (broadcastInDim S256x3 ![] bcast_S_S256x3 (sitofp .f32 (constantI S_ 32 9#32))) lo
  have ix : (⟨S256x3, .i32⟩ : BufTy).Contents (Elt F) := fptosi 32 clipped
  have neg : (⟨S256x3, .i1⟩ : BufTy).Contents (Elt F) := cmpi .slt ix (broadcastInDim S256x3 ![] bcast_S_S256x3 (constantI S_ 32 0#32))
  have wrapped : (⟨S256x3, .i32⟩ : BufTy).Contents (Elt F) := addi ix (broadcastInDim S256x3 ![] bcast_S_S256x3 (constantI S_ 32 10#32))
  have ix' : (⟨S256x3, .i32⟩ : BufTy).Contents (Elt F) := select neg wrapped ix
  -- the position at that index, and the squared distance of the mean to it
  have posAt : (⟨S256x3, .f32⟩ : BufTy).Contents (Elt F) :=
    Host.gather gather_S10_S256x3x1_S256x3_n_0_n_n_0_2_1 pos (broadcastInDim S256x3x1 ![0, 1] bcast_S256x3_S256x3x1_0_1 ix')
  have dAt0 : (⟨S256x3, .f32⟩ : BufTy).Contents (Elt F) := subf mu3 posAt
  have dAt : (⟨S256x3, .f32⟩ : BufTy).Contents (Elt F) := mulf dAt0 dAt0
  -- the discrete part: summed over rows, divided by 256, summed over the three columns
  have disc : (⟨S256x3, .f32⟩ : BufTy).Contents (Elt F) := select nan3 dNear dAt
  have discCols : (⟨S3, .f32⟩ : BufTy).Contents (Elt F) := Host.reduceAdd disc (constant S_ .f32 0x00000000#32) reducesTo_S256x3_S3_d0 h_S_
  have discMean : (⟨S3, .f32⟩ : BufTy).Contents (Elt F) := Host.divf discCols (broadcastInDim S3 ![] bcast_S_S3 (constant S_ .f32 0x43800000#32))
  have kldDisc : (⟨S_, .f32⟩ : BufTy).Contents (Elt F) := Host.reduceAdd discMean (constant S_ .f32 0x00000000#32) reducesTo_S3_S_d0 h_S_
  -- columns 3 … 6 of the means and of the labels; where a label is a number
  have mu4 : (⟨S256x4, .f32⟩ : BufTy).Contents (Elt F) := extractStridedSlice S256x4 ![0, 3] mu slices_S256x32_S256x4_0_3
  have y4 : (⟨S256x4, .f32⟩ : BufTy).Contents (Elt F) := extractStridedSlice S256x4 ![0, 3] y slices_S256x7_S256x4_0_3
  have num4 : (⟨S256x4, .i1⟩ : BufTy).Contents (Elt F) := noti (cmpf .une y4 y4)
  -- (mu - y)² where the label is a number, else 0
  have y4' : (⟨S256x4, .f32⟩ : BufTy).Contents (Elt F) := select num4 y4 (broadcastInDim S256x4 ![] bcast_S_S256x4 (constant S_ .f32 0x00000000#32))
  have d4 : (⟨S256x4, .f32⟩ : BufTy).Contents (Elt F) := subf mu4 y4'
  have sq4 : (⟨S256x4, .f32⟩ : BufTy).Contents (Elt F) := mulf d4 d4
  have sq4' : (⟨S256x4, .f32⟩ : BufTy).Contents (Elt F) := select num4 sq4 (broadcastInDim S256x4 ![] bcast_S_S256x4 (constant S_ .f32 0x00000000#32))
  -- max(|mu| - 10, 0)²
  have over0 : (⟨S256x4, .f32⟩ : BufTy).Contents (Elt F) := subf (Host.absf mu4) (broadcastInDim S256x4 ![] bcast_S_S256x4 (constant S_ .f32 0x41200000#32))
  have over : (⟨S256x4, .f32⟩ : BufTy).Contents (Elt F) := maximumf over0 (broadcastInDim S256x4 ![] bcast_S_S256x4 (constant S_ .f32 0x00000000#32))
  have overSq : (⟨S256x4, .f32⟩ : BufTy).Contents (Elt F) := mulf over over
  -- the linear part: summed over columns, then rows, divided by 256
  have lin : (⟨S256x4, .f32⟩ : BufTy).Contents (Elt F) := select num4 sq4' overSq
  have linRows : (⟨S256, .f32⟩ : BufTy).Contents (Elt F) := Host.reduceAdd lin (constant S_ .f32 0x00000000#32) reducesTo_S256x4_S256_d1 h_S_
  have linSum : (⟨S_, .f32⟩ : BufTy).Contents (Elt F) := Host.reduceAdd linRows (constant S_ .f32 0x00000000#32) reducesTo_S256_S_d0 h_S_
  have kldLin : (⟨S_, .f32⟩ : BufTy).Contents (Elt F) := Host.divf linSum (constant S_ .f32 0x43800000#32)
  addf kldDisc kldLin

attribute [local irreducible] Host.reduce Host.reduceAdd Host.gather

/-- The first result is the reconstruction term of the first two arguments. -/
theorem v4_eq (V : Valuation τ sig (Elt F)) :
    after ops V (main_v4 : DevRef τ sig) = recon (V (main_arg0 : DevRef τ sig)) (V (main_arg1 : DevRef τ sig)) := by
  after_results_simp
  rfl

set_option maxRecDepth 16384 in
set_option maxHeartbeats 4000000 in
/-- The second result is the divergence term of the last three arguments. -/
theorem v49_eq (V : Valuation τ sig (Elt F)) :
    after ops V (main_v49 : DevRef τ sig)
      = kld (V (main_arg2 : DevRef τ sig)) (V (main_arg3 : DevRef τ sig)) (V (main_arg4 : DevRef τ sig)) := by
  after_results_simp
  rfl

set_option maxRecDepth 16384 in
set_option maxHeartbeats 4000000 in
/-- The third result is the sum of the two terms. -/
theorem v50_eq (V : Valuation τ sig (Elt F)) :
    after ops V (main_v50 : DevRef τ sig)
      = addf (recon (V (main_arg0 : DevRef τ sig)) (V (main_arg1 : DevRef τ sig)))
          (kld (V (main_arg2 : DevRef τ sig)) (V (main_arg3 : DevRef τ sig)) (V (main_arg4 : DevRef τ sig))) := by
  after_results_simp
  rfl

/-- No operation writes an argument. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

end Cert.ReferenceIdeal.RefRun

end
-- ==== Proof.KTailVals.lean ====
import proofs.«100174_j55533927137965_2_alg».proof.Proof.RefVals
import proofs.«100174_j55533927137965_2_alg».proof.Proof.Gen.KernelIdeal.Launch

noncomputable section

namespace Cert.KernelIdeal.TailVals

open Cert.KernelIdeal Cert.KernelIdeal.Gen Idealize.ShloMosaic Idealize.ShloMosaic.TcCoe Idealize.SL.Sem Idealize.ShloMosaic.StableHlo

variable {F : FTy → Type} [FloatOps F]

/-- The operations after the region, in order, as their fifteen stretches: the total reshaped to a scalar and divided
    by 256, then the same operations on the labels, the means and the positions as the reference's. -/
abbrev tailOps : List (List (HloOp τ sig (Elt F))) :=
  [hostOps1, hostOps1_1, hostOps1_2, hostOps1_3, hostOps1_4, hostOps1_5, hostOps1_6, hostOps1_7, hostOps1_8, hostOps1_9,
    hostOps1_10, hostOps1_11, hostOps1_12, hostOps1_13, hostOps1_14]

attribute [local irreducible] Host.reduce Host.reduceAdd Host.gather

/-- The first result is the region's 1 × 1 total read as a scalar, divided by 256. -/
theorem v2_eq (W : Valuation τ sig (Elt F)) :
    after tailOps.flatten W (main_v2 : DevRef τ sig)
      = Host.divf (shapeCast S_ (W (main_v0 : DevRef τ sig)) shapeCasts_S1x1_S_) (constant S_ .f32 0x43800000#32) := by
  simp only [tailOps, List.flatten_cons, List.flatten_nil, List.cons_append, List.nil_append, List.append_nil]
  after_results_simp
  rfl

set_option maxRecDepth 16384 in
set_option maxHeartbeats 4000000 in
/-- The second result is the reference's divergence term of the last three arguments: the operations are the same,
    on shapes that are the same literals, over side conditions that are proofs. -/
theorem v47_eq (W : Valuation τ sig (Elt F)) :
    after tailOps.flatten W (main_v47 : DevRef τ sig)
      = Cert.ReferenceIdeal.RefRun.kld (W (main_arg2 : DevRef τ sig)) (W (main_arg3 : DevRef τ sig)) (W (main_arg4 : DevRef τ sig)) := by
  simp only [tailOps, List.flatten_cons, List.flatten_nil, List.cons_append, List.nil_append, List.append_nil]
  after_results_simp
  rfl

set_option maxRecDepth 16384 in
set_option maxHeartbeats 4000000 in
/-- The third result is the sum of the two. -/
theorem v48_eq (W : Valuation τ sig (Elt F)) :
    after tailOps.flatten W (main_v48 : DevRef τ sig)
      = addf (Host.divf (shapeCast S_ (W (main_v0 : DevRef τ sig)) shapeCasts_S1x1_S_) (constant S_ .f32 0x43800000#32))
          (Cert.ReferenceIdeal.RefRun.kld (W (main_arg2 : DevRef τ sig)) (W (main_arg3 : DevRef τ sig)) (W (main_arg4 : DevRef τ sig))) := by
  simp only [tailOps, List.flatten_cons, List.flatten_nil, List.cons_append, List.nil_append, List.append_nil]
  after_results_simp
  rfl

/-- No operation after the region writes an argument. -/
theorem arg0_eq (W : Valuation τ sig (Elt F)) : after tailOps.flatten W (main_arg0 : DevRef τ sig) = W (main_arg0 : DevRef τ sig) := by
  simp only [tailOps, List.flatten_cons, List.flatten_nil, List.cons_append, List.nil_append, List.append_nil]
  after_results_simp
theorem arg1_eq (W : Valuation τ sig (Elt F)) : after tailOps.flatten W (main_arg1 : DevRef τ sig) = W (main_arg1 : DevRef τ sig) := by
  simp only [tailOps, List.flatten_cons, List.flatten_nil, List.cons_append, List.nil_append, List.append_nil]
  after_results_simp
theorem arg2_eq (W : Valuation τ sig (Elt F)) : after tailOps.flatten W (main_arg2 : DevRef τ sig) = W (main_arg2 : DevRef τ sig) := by
  simp only [tailOps, List.flatten_cons, List.flatten_nil, List.cons_append, List.nil_append, List.append_nil]
  after_results_simp
theorem arg3_eq (W : Valuation τ sig (Elt F)) : after tailOps.flatten W (main_arg3 : DevRef τ sig) = W (main_arg3 : DevRef τ sig) := by
  simp only [tailOps, List.flatten_cons, List.flatten_nil, List.cons_append, List.nil_append, List.append_nil]
  after_results_simp
theorem arg4_eq (W : Valuation τ sig (Elt F)) : after tailOps.flatten W (main_arg4 : DevRef τ sig) = W (main_arg4 : DevRef τ sig) := by
  simp only [tailOps, List.flatten_cons, List.flatten_nil, List.cons_append, List.nil_append, List.append_nil]
  after_results_simp

end Cert.KernelIdeal.TailVals

end
-- ==== Proof.KIBridge.lean ====
/-
  The kernel's total is the reference's, over the extended reals. The accumulator after point n is the sum of the
  first n + 1 blocks' totals (each point adds its block's total; the first starts from zero); a block's total is the
  sum of its thirty-two rows' totals, row p of block t being row 32 t + p of the arrays; eight blocks of thirty-two
  rows are the 256 rows. The reference's nested reduction is the sum over all rows of the rows' totals. Both divide by
  the same 256, so the first result agrees. Only commutativity and associativity of the sum are used: no finiteness.
-/
import proofs.«100174_j55533927137965_2_alg».proof.Proof.KIValue
import proofs.«100174_j55533927137965_2_alg».proof.Proof.SumLaw
import proofs.«100174_j55533927137965_2_alg».proof.Proof.KTailVals

noncomputable section

open scoped BigOperators

namespace Cert.KernelIdeal.Hand

open Cert.KernelIdeal Cert.KernelIdeal.Gen Cert.KernelIdeal.SumLaw
open Idealize.ShloMosaic Idealize.ShloMosaic.TcCoe Idealize.ShloMosaic.ValueIdx Idealize.SL.Sem

variable (m : (ℓ : Loc nD τ sig) → Buf (Elt Ideal) ℓ)

/-- Row `b`'s total: the sum over the row's 3·128·128 entries of the magnitude of the two arrays' difference. -/
def rowTotal (c : Dev nD) (b : Fin 256) : EReal :=
  ∑ k : Fin 3, ∑ h : Fin 128, ∑ w : Fin 128,
    dist (m ((c : Thread nD τ).loc main_arg0) (ix4 b k h w)) (m ((c : Thread nD τ).loc main_arg1) (ix4 b k h w))

/-- Block `t`'s total: the sum over the two blocks' 32·3·128·128 entries (zero past the grid). -/
def blockTotal (c : Dev nD) (t : ℕ) : EReal :=
  if ht : t < cfg0.N then
    ∑ p : Fin 32, ∑ k : Fin 3, ∑ h : Fin 128, ∑ w : Fin 128,
      dist ((iblk m c 0 ⟨t, ht⟩ : Vec Ideal S32x3x128x128 .f32) (ix4 p k h w))
        ((iblk m c 1 ⟨t, ht⟩ : Vec Ideal S32x3x128x128 .f32) (ix4 p k h w))
  else 0

/-- The accumulator after point `n` is the sum of the totals of blocks 0 … n. -/
theorem acc_apply (c : Dev nD) : ∀ (n : ℕ) (h : n < cfg0.N) (j : S1x1.Idx),
    acc m c n h j = ∑ t ∈ Finset.range (n + 1), blockTotal m c t
  | 0, h, j => by
    show k0_pay2 (F := Ideal) _ _ (k0_pay1 (F := Ideal)) j = _
    refine (pay2_apply _ _ _ j).trans ?_
    rw [pay1_apply, zero_add, Finset.sum_range_one]
    show _ = dite _ _ _
    rw [dif_pos h]
  | n + 1, h, j => by
    show k0_pay2 (F := Ideal) _ _ (acc m c n _) j = _
    refine (pay2_apply _ _ _ j).trans ?_
    rw [acc_apply c n _ j]
    refine Eq.trans ?_ (Finset.sum_range_succ _ (n + 1)).symm
    refine congrArg (_ + ·) ?_
    show _ = dite _ _ _
    rw [dif_pos h]

/-- A block's total is the sum of its thirty-two rows' totals. -/
theorem blockTotal_eq (c : Dev nD) (t : Fin 8) :
    blockTotal m c t.val = ∑ p : Fin 32, rowTotal m c ⟨32 * t.val + p.val, by omega⟩ := by
  have ht : t.val < cfg0.N := lt_of_lt_of_eq t.isLt (show cfg0.N = 8 from N_0).symm
  unfold blockTotal rowTotal
  rw [dif_pos ht]
  refine Finset.sum_congr rfl fun p _ => Finset.sum_congr rfl fun k _ => Finset.sum_congr rfl fun h _ =>
    Finset.sum_congr rfl fun w _ => ?_
  rw [iblk0_apply, iblk1_apply]

/-- The kernel's result is the sum of all 256 rows' totals. -/
theorem result_apply (c : Dev nD) (j : S1x1.Idx) : result m c j = ∑ b : Fin 256, rowTotal m c b := by
  show acc m c 7 _ j = _
  rw [acc_apply, ← regroup (rowTotal m c)]
  show ∑ t ∈ Finset.range 8, blockTotal m c t = _
  rw [Finset.sum_range]
  exact Finset.sum_congr rfl fun t _ => blockTotal_eq m c t

/-- The first result: the kernel's total over 256, as the host line after the launch computes it, is the reference's
    mean of the rows' totals. -/
theorem recon_eq (c : Dev nD) :
    Host.divf (F := Ideal) (shapeCast S_ (result m c) shapeCasts_S1x1_S_) (constant (F := Ideal) S_ .f32 0x43800000#32)
      = Cert.ReferenceIdeal.RefRun.recon (F := Ideal) (m ((c : Thread nD τ).loc main_arg0)) (m ((c : Thread nD τ).loc main_arg1)) := by
  unfold Cert.ReferenceIdeal.RefRun.recon
  refine congrArg (fun z => Host.divf (F := Ideal) z (constant (F := Ideal) S_ .f32 0x43800000#32)) ?_
  funext j
  rw [ref_total]
  have hk : ((S1x1.rowMajor (ix2 (0 : Fin 1) (0 : Fin 1))).val) = (S_.rowMajor j).val :=
    (Fin.val_eq_zero (show Fin 1 from S1x1.rowMajor (ix2 0 0))).trans (Fin.val_eq_zero (show Fin 1 from S_.rowMajor j)).symm
  rw [shapeCast_apply _ _ j (ix2 (0 : Fin 1) (0 : Fin 1)) hk, result_apply]
  rfl

end Cert.KernelIdeal.Hand

end
-- ==== Proof.lean ====
/-
  The certificate: a batch-mean L1 reconstruction term, a divergence term and their sum, computed by a kernel program
  and by a reference, agree over the extended reals.

  The kernel program totals |x - x'| over f32[256, 3, 128, 128] on a grid of eight points, thirty-two rows a point,
  into a 1×1 accumulator (zeroed at the first point, copied to the result after the last), and host lines then divide
  the total by 256, compute the divergence term from the labels, the means and the ten positions, and add the two.
  The reference sums |x - x'| row by row and then over the rows, divides by 256, and runs the same host lines.

  frames        each program runs to the end without fault and leaves its five arguments as they were: for the two
                kernel programs (the word-level one and its idealization: one text at two instances) from the launch
                theorem for a region followed by host lines, with the body run once per case of its two conditions;
                for the reference from its host lines' run.
  preserves     the idealization rewrote nothing.
  algebraic     the accumulator after the last point is the sum of the eight blocks' totals, a block's total the sum
                of its rows' totals, and eight blocks of thirty-two rows are the 256 rows, so the kernel's total is
                the reference's nested sum — sums in a commutative monoid, no finiteness used; both are divided by the
                same 256; the divergence term is one function of the same three arguments on both sides; the third
                result adds the two.
-/
import proofs.«100174_j55533927137965_2_alg».proof.Defs
import proofs.«100174_j55533927137965_2_alg».proof.Proof.Gen.Kernel
import proofs.«100174_j55533927137965_2_alg».proof.Proof.Gen.KernelIdeal
import proofs.«100174_j55533927137965_2_alg».proof.Proof.Gen.ReferenceIdeal
import proofs.«100174_j55533927137965_2_alg».proof.Proof.Gen.Pre_finite_inputs
import proofs.«100174_j55533927137965_2_alg».proof.Proof.KFrame
import proofs.«100174_j55533927137965_2_alg».proof.Proof.KIBridge

noncomputable section

namespace Cert.Proof

open Idealize.ShloMosaic Idealize.ShloMosaic.TcCoe Idealize.SL.Sem

/-- The word-level kernel program's frame. -/
theorem frame_k : Cert.frame_Kernel := fun m ρ _ => Cert.Kernel.Hand.frame (F := Bits) m ρ

/-- The idealized kernel program's frame. -/
theorem frame_ki : Cert.frame_KernelIdeal := fun m ρ _ => Cert.KernelIdeal.Hand.frame (F := Ideal) m ρ

/-- The reference's frame: its host lines' run, read at the five arguments, none of which a line writes. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.arg0_eq _), (h c Cert.ReferenceIdeal.main_arg1).trans (Cert.ReferenceIdeal.RefRun.arg1_eq _),
     (h c Cert.ReferenceIdeal.main_arg2).trans (Cert.ReferenceIdeal.RefRun.arg2_eq _), (h c Cert.ReferenceIdeal.main_arg3).trans (Cert.ReferenceIdeal.RefRun.arg3_eq _),
     (h c Cert.ReferenceIdeal.main_arg4).trans (Cert.ReferenceIdeal.RefRun.arg4_eq _)⟩)
    (Cert.ReferenceIdeal.RefRun.run_main (F := Ideal) m ρ)

/-- The idealization rewrote no operation. -/
theorem preserves : Cert.preserves_Kernel_KernelIdeal := trivial

/-- Both idealized programs, from memories that agree on the arguments, end with the same three results: the mean
    of the rows' totals, the divergence term of the labels, means and positions, and their sum. -/
theorem algebraic : Cert.algebraic_KernelIdeal_ReferenceIdeal := by
  intro m ρ m' ρ' _ hagree
  refine ⟨fun c => Cert.ReferenceIdeal.RefRun.recon (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.RefRun.kld (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => (addf (Cert.ReferenceIdeal.RefRun.recon (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.ReferenceIdeal.RefRun.kld (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) : FVec Ideal Cert.ReferenceIdeal.S_ .f32), ?_, ?_⟩
  · -- the kernel program: the host lines after the launch, read from the launch's exit contents
    refine (θ_run Cert.KernelIdeal.defs _ _).mono (fun r h c => ?_) (Cert.KernelIdeal.Hand.run_main (F := Ideal) m ρ)
    have e2 := (Cert.KernelIdeal.Hand.post_rest m h c Cert.KernelIdeal.main_v2 (Pipeline.mem_restRefs_of Cert.KernelIdeal.main_v2 (by decide) (by decide))).trans
      (Cert.KernelIdeal.TailVals.v2_eq _)
    have e47 := (Cert.KernelIdeal.Hand.post_rest m h c Cert.KernelIdeal.main_v47 (Pipeline.mem_restRefs_of Cert.KernelIdeal.main_v47 (by decide) (by decide))).trans
      (Cert.KernelIdeal.TailVals.v47_eq _)
    have e48 := (Cert.KernelIdeal.Hand.post_rest m h c Cert.KernelIdeal.main_v48 (Pipeline.mem_restRefs_of Cert.KernelIdeal.main_v48 (by decide) (by decide))).trans
      (Cert.KernelIdeal.TailVals.v48_eq _)
    rw [Cert.KernelIdeal.Hand.Wfin_result, Cert.KernelIdeal.Hand.recon_eq] at e2
    rw [Cert.KernelIdeal.Hand.Wfin_arg2, Cert.KernelIdeal.Hand.Wfin_arg3, Cert.KernelIdeal.Hand.Wfin_arg4] at e47
    rw [Cert.KernelIdeal.Hand.Wfin_result, Cert.KernelIdeal.Hand.recon_eq, Cert.KernelIdeal.Hand.Wfin_arg2, Cert.KernelIdeal.Hand.Wfin_arg3, Cert.KernelIdeal.Hand.Wfin_arg4] at e48
    exact ⟨e2, e47, e48, Cert.KernelIdeal.Hand.post_args m h c⟩
  · -- the reference: its host lines' run, the arguments' agreement rewritten
    refine (θ_run Cert.ReferenceIdeal.defs _ _).mono (fun r h c => ?_) (Cert.ReferenceIdeal.RefRun.run_main (F := Ideal) m' ρ')
    obtain ⟨a0, a1, a2, a3, a4⟩ := hagree c
    refine ⟨(h c Cert.ReferenceIdeal.main_v4).trans ((Cert.ReferenceIdeal.RefRun.v4_eq _).trans ?_), (h c Cert.ReferenceIdeal.main_v49).trans ((Cert.ReferenceIdeal.RefRun.v49_eq _).trans ?_),
      (h c Cert.ReferenceIdeal.main_v50).trans ((Cert.ReferenceIdeal.RefRun.v50_eq _).trans ?_),
      (h c Cert.ReferenceIdeal.main_arg0).trans (Cert.ReferenceIdeal.RefRun.arg0_eq _), (h c Cert.ReferenceIdeal.main_arg1).trans (Cert.ReferenceIdeal.RefRun.arg1_eq _),
      (h c Cert.ReferenceIdeal.main_arg2).trans (Cert.ReferenceIdeal.RefRun.arg2_eq _), (h c Cert.ReferenceIdeal.main_arg3).trans (Cert.ReferenceIdeal.RefRun.arg3_eq _),
      (h c Cert.ReferenceIdeal.main_arg4).trans (Cert.ReferenceIdeal.RefRun.arg4_eq _)⟩
    · show Cert.ReferenceIdeal.RefRun.recon (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) = _
      rw [a0, a1]
    · show Cert.ReferenceIdeal.RefRun.kld (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
      rw [a2, a3, a4]
    · show (addf (Cert.ReferenceIdeal.RefRun.recon (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
        (Cert.ReferenceIdeal.RefRun.kld (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) : FVec Ideal Cert.ReferenceIdeal.S_ .f32) = _
      rw [a0, a1, a2, a3, a4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
